-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S1x8192 : Shape := ⟨2, ![1, 8192]⟩
abbrev S4096x8192 : Shape := ⟨2, ![4096, 8192]⟩
abbrev S2048x8192 : Shape := ⟨2, ![2048, 8192]⟩
abbrev S512x128 : Shape := ⟨2, ![512, 128]⟩
abbrev S128x8192 : Shape := ⟨2, ![128, 8192]⟩
abbrev S512x2048 : Shape := ⟨2, ![512, 2048]⟩
abbrev S512x8192 : Shape := ⟨2, ![512, 8192]⟩

abbrev nBuf : Space → Nat
  | .hbm => 20
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192, .f32⟩
  | .hbm, ⟨13, _⟩ => ⟨S1x8192, .f32⟩
  | .hbm, ⟨14, _⟩ => ⟨S4096x8192, .f32⟩
  | .hbm, ⟨15, _⟩ => ⟨S4096x8192, .bf16⟩
  | .hbm, ⟨16, _⟩ => ⟨S2048x8192, .bf16⟩
  | .hbm, ⟨17, _⟩ => ⟨S2048x8192, .bf16⟩
  | .hbm, ⟨18, _⟩ => ⟨S8192x2048, .f32⟩
  | .hbm, ⟨19, _⟩ => ⟨S8192x2048, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x8192, .bf16⟩
  | .local _ .vmem, ⟨5, _⟩ => ⟨S128x8192, .bf16⟩
  | .local _ .vmem, ⟨6, _⟩ => ⟨S128x8192, .bf16⟩
  | .local _ .vmem, ⟨7, _⟩ => ⟨S128x8192, .bf16⟩
  | .local _ .vmem, ⟨8, _⟩ => ⟨S1x8192, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x8192, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  shapeCasts_S8192_S1x8192 : S8192.ShapeCasts S1x8192
  transposes_S8192x4096_S4096x8192_1_0 : S8192x4096.Transposes [1, 0] S4096x8192
  bitsLt_bf16_f32 : FTy.bits .bf16 < FTy.bits .f32
  slices_S4096x8192_S2048x8192_0_0 : S4096x8192.Slices ![0, 0] S2048x8192
  slices_S4096x8192_S2048x8192_2048_0 : S4096x8192.Slices ![2048, 0] S2048x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S512x128_S512x128_0_0 : ∀ a, (![0, 0] : Fin 2 → Nat) a + S512x128.size a ≤ S512x128.size a
  h_S512x128 : 0 < S512x128.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  slices_S512x8192_o0_0_S512x2048 : S512x8192.Slices ![0, 0] S512x2048
  slices_S512x8192_o0_2048_S512x2048 : S512x8192.Slices ![0, 2048] S512x2048
  slices_S512x8192_o0_4096_S512x2048 : S512x8192.Slices ![0, 4096] S512x2048
  slices_S512x8192_o0_6144_S512x2048 : S512x8192.Slices ![0, 6144] S512x2048
  inb_S512x2048_S512x2048_0_0 : ∀ a, (![0, 0] : Fin 2 → Nat) a + S512x2048.size a ≤ S512x2048.size a
  h_S512x2048 : 0 < S512x2048.numel
  dot_S512x128_S128x8192_S512x8192_1_0_0_1_n_n_wf : DotDims.WF S512x128 S128x8192 S512x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x2048.size a
  hwx0_0 : ∀ i : grid0.Coords, EltTy.bits .f32 = 32 ∨ (Rect.block (s := S8192x2048) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x2048.size a
  hwx0_1 : ∀ i : grid0.Coords, EltTy.bits .f32 = 32 ∨ (Rect.block (s := S8192x2048) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S2048x8192.size a
  hwx0_2 : ∀ i : grid0.Coords, EltTy.bits .bf16 = 32 ∨ (Rect.block (s := S2048x8192) S128x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S2048x8192.size a
  hwx0_3 : ∀ i : grid0.Coords, EltTy.bits .bf16 = 32 ∨ (Rect.block (s := S2048x8192) S128x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .f32 = 32 ∨ (Rect.block (s := S8192x2048) S512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x128_S128x8192_S512x8192_1_0_0_1_n_n : DotDims S512x128 S128x8192 S512x8192 where
  lhsContracting := [1]
  rhsContracting := [0]
  lhsNonContracting := [0]
  rhsNonContracting := [1]
  lhsBatch := []
  rhsBatch := []
  wf := dot_S512x128_S128x8192_S512x8192_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S512x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.K.Entry.lean ====
/-
  The host side of the program before its one kernel region: the seven host operations stack the gates' weights and
  biases, transpose the stacked weights, round them, and cut the transposed matrix into its input half and its
  hidden-state half. `V` is what every buffer holds when the region is entered; no argument array is written.
-/
import proofs.«101779_j19009525252387_2_alg».proof.Proof.Gen.Kernel.Launch
import proofs.«101779_j19009525252387_2_alg».proof.Proof.Gen.Kernel.Skeleton
import proofs.«101779_j19009525252387_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seven host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations followed by the region, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

end Cert.Kernel.GenH

end
-- ==== Proof.K.Kit.lean ====
/-
  What the three cases of the kernel body share. The grid is 16 batch tiles by 16 steps along the contracted axis;
  a step is the FIRST of its tile (it resets the accumulator to the bias row), the LAST (it applies the gates and
  stores both results), or neither. Here: each window's block at a point, the two conditions in closed form over
  the 256 points, where the two result windows are idle, the staging buffers the body is called with, and the
  frame claim read off a run that ends with every array named.
-/
import proofs.«101779_j19009525252387_2_alg».proof.Proof.K.Entry

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not: the
    block index has not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not: the
    block index has not moved since the fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not: the
    block index has not moved since the fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not: the
    block index has not moved since the fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not: the
    block index has not moved since the fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not: the
    block index has not moved since the fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array -/

/-- Every argument array ends as launched: a staged argument is its window's array, which the pipeline only reads;
    the others are buffers the region does not touch; and no host operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's two conditions -/

/-- "This is the first step of its batch tile" (the accumulator is reset), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last step of its batch tile" (the gates are applied and both results stored). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output window 6 is stored only at the last step of the accumulation: idle, and not written back, elsewhere. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
/-- Output window 7 is stored only at the last step of the accumulation: idle, and not written back, elsewhere. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The buffers the body is called with -/

/-- One staging buffer of each result window, through which its contents are stated. -/
abbrev VO0_6 : View sig .tc .vmem S512x2048 .f32 := (Memref.whole cc0_stg6_0 : Memref sig .tc .vmem S512x2048 .f32).view
abbrev VO0_7 : View sig .tc .vmem S512x2048 .f32 := (Memref.whole cc0_stg7_0 : Memref sig .tc .vmem S512x2048 .f32).view
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0_0 : Memref sig .tc .vmem S512x8192 .f32 := Memref.whole cc0_scratch0
abbrev VS0_0 : View sig .tc .vmem S512x8192 .f32 := scM0_0.view

/-- What the region hands the body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.GenH

end
-- ==== Proof.K.RunA.lean ====
/-
  The kernel body run once, at the FIRST step of a batch tile (not the last): the accumulator is reset to the bias row and the step's two products are added; the result windows are left untouched.
  The run's witness is the list of stores each buffer ends with; the triple says the body, handed the input blocks at
  their contents, returns them unchanged with those stores written.
-/
import proofs.«101779_j19009525252387_2_alg».proof.Proof.K.Kit

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves (last first) in this case, with the body's triple on whole staging buffers. -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) :
    { LS0 : List (View.Piece (Elt F) S512x8192 .f32) //
      ∀ (xi6 xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun xi6 xi7 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.GenH

end
-- ==== Proof.K.RunB.lean ====
/-
  The kernel body run once, at a MIDDLE step of a batch tile: the step's two products are added to the accumulator the step before left; the result windows are left untouched.
  The run's witness is the list of stores each buffer ends with; the triple says the body, handed the input blocks at
  their contents, returns them unchanged with those stores written.
-/
import proofs.«101779_j19009525252387_2_alg».proof.Proof.K.RunA

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves (last first) in this case, with the body's triple on whole staging buffers. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    { LS0 : List (View.Piece (Elt F) S512x8192 .f32) //
      ∀ (xi6 xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun xi6 xi7 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.GenH

end
-- ==== Proof.K.RunC.lean ====
/-
  The kernel body run once, at the LAST step of a batch tile: the step's two products are added to the accumulator the step before left, the gates are applied to it and both result blocks are stored.
  The run's witness is the list of stores each buffer ends with; the triple says the body, handed the input blocks at
  their contents, returns them unchanged with those stores written.
-/
import proofs.«101779_j19009525252387_2_alg».proof.Proof.K.RunB

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves (last first) in this case, with the body's triple on whole staging buffers. -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    Σ' (L6 : List (View.Piece (Elt F) S512x2048 .f32)) (L7 : List (View.Piece (Elt F) S512x2048 .f32)), { LS0 : List (View.Piece (Elt F) S512x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.Kernel.GenH

end
-- ==== Proof.K.Frame.lean ====
/-
  The accumulation over the grid and the run of the whole program.

  After each point the accumulator holds what that point's case left in it — the bias row plus the first step's two
  products at the first step of a batch tile, the previous contents plus this step's two products afterwards — and the
  two result windows hold, at the last step of a tile, the gates applied to the accumulator. `outsAt0` states this by
  recursion on the point; the region's invariant carries the accumulator from point to point; the body's triple at
  each point is its case's run; and the launch of the region gives the run of @main with every array named, whence
  the frame: every argument array ends as launched.
-/
import proofs.«101779_j19009525252387_2_alg».proof.Proof.K.RunC

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What an idle result window is said to hold: nothing consults it (the window is neither written back nor read). -/
def idleOut : Vec F S512x2048 .f32 := VO0_6.read (Elt F) (VO0_6.writes (Elt F) VO0_6.junk [])

/-! ## What each case leaves -/

/-- The first step's stores cover the accumulator. -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (y : S512x8192.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S512x8192.size (by sl_kernel_rfl) y

/-- What the first step leaves in the accumulator: its stores read back. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) : Vec F S512x8192 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).1)

/-- A middle step's store covers the accumulator. -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x8192.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S512x8192.size (by sl_kernel_rfl) y

/-- What a middle step leaves in the accumulator. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x8192 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).1)

/-- The last step's store covers the accumulator, -/
theorem scover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x8192.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.2.1 S512x8192.size (by sl_kernel_rfl) y

/-- and each result window's store covers its block. -/
theorem cover0_C_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S512x2048.size (by sl_kernel_rfl) y
theorem cover0_C_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.1 S512x2048.size (by sl_kernel_rfl) y

/-- What the last step leaves in the accumulator and in the two result windows. -/
def sout0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x8192 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)
def out0_C_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)
def out0_C_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)

/-! ## The same at a point of the grid, on the buffers and blocks the pipeline hands the body there -/

def soutA (c : Dev nD) (t : Fin cfg0.N) (h0 : t.val % 16 = 0) (h1 : ¬t.val % 16 = 15) : Vec F S512x8192 .f32 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
def soutB (c : Dev nD) (t : Fin cfg0.N) (h0 : ¬t.val % 16 = 0) (h1 : ¬t.val % 16 = 15) (xs0 : Vec F S512x8192 .f32) : Vec F S512x8192 .f32 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0
def soutC (c : Dev nD) (t : Fin cfg0.N) (h0 : ¬t.val % 16 = 0) (h1 : t.val % 16 = 15) (xs0 : Vec F S512x8192 .f32) : Vec F S512x8192 .f32 :=
  sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0
def outC6 (c : Dev nD) (t : Fin cfg0.N) (h0 : ¬t.val % 16 = 0) (h1 : t.val % 16 = 15) (xs0 : Vec F S512x8192 .f32) : Vec F S512x2048 .f32 :=
  out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0
def outC7 (c : Dev nD) (t : Fin cfg0.N) (h0 : ¬t.val % 16 = 0) (h1 : t.val % 16 = 15) (xs0 : Vec F S512x8192 .f32) : Vec F S512x2048 .f32 :=
  out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0

/-! ## What the result windows and the accumulator hold after each point -/

/-- THE ACCUMULATION: after the body at position `n`, the two result windows' staging buffers and the accumulator —
    the case the position selects (first, middle or last step of its tile), a later step over what the step before
    left in the accumulator. -/
def outsAt0 (c : Dev nD) : (n : ℕ) → n < cfg0.N → Vec F S512x2048 .f32 × Vec F S512x2048 .f32 × Vec F S512x8192 .f32
  | 0, hn => (idleOut, idleOut, soutA m c ⟨0, hn⟩ (Nat.zero_mod _) (by show ¬(0 % 16 = 15); decide))
  | n + 1, hn =>
    if h0 : (n + 1) % 16 = 0 then
      if h1 : (n + 1) % 16 = 15 then
        False.elim (by omega)
      else
        (idleOut, idleOut, soutA m c ⟨n + 1, hn⟩ h0 h1)
    else
      if h1 : (n + 1) % 16 = 15 then
        (outC6 m c ⟨n + 1, hn⟩ h0 h1 (outsAt0 c n (Nat.lt_of_succ_lt hn)).2.2, outC7 m c ⟨n + 1, hn⟩ h0 h1 (outsAt0 c n (Nat.lt_of_succ_lt hn)).2.2, soutC m c ⟨n + 1, hn⟩ h0 h1 (outsAt0 c n (Nat.lt_of_succ_lt hn)).2.2)
      else
        (idleOut, idleOut, soutB m c ⟨n + 1, hn⟩ h0 h1 (outsAt0 c n (Nat.lt_of_succ_lt hn)).2.2)

theorem outsAt0_A (c : Dev nD) (t : Fin cfg0.N) (h0 : t.val % 16 = 0) (h1 : ¬t.val % 16 = 15) :
    outsAt0 m c t.val t.isLt = (idleOut, idleOut, soutA m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (idleOut, idleOut, soutB m c t h0 h1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (outC6 m c t h0 h1 (outsAt0 m c (t.val - 1) (Nat.lt_of_le_of_lt (Nat.sub_le _ _) t.isLt)).2.2, outC7 m c t h0 h1 (outsAt0 m c (t.val - 1) (Nat.lt_of_le_of_lt (Nat.sub_le _ _) t.isLt)).2.2, soutC m c t h0 h1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body at a point each input's buffer at its block and the result
    windows' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the point's position in its batch tile says which
    case it is in; the invariant hands the body the accumulator at what the point before left (at anything at the very
    first point) and takes it back at this point's contents; the result windows are handed back untouched except at a
    tile's last step, where they hold the gates' results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold soutA sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold outC6 outC7 soutC out0_C_6 out0_C_7 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold soutB sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has each array of the pipeline at what the
    proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.GenH

end
-- ==== Proof.KI.Entry.lean ====
/-
  The host side of the program before its one kernel region: the seven host operations stack the gates' weights and
  biases, transpose the stacked weights, round them, and cut the transposed matrix into its input half and its
  hidden-state half. `V` is what every buffer holds when the region is entered; no argument array is written.
-/
import proofs.«101779_j19009525252387_2_alg».proof.Proof.Gen.KernelIdeal.Launch
import proofs.«101779_j19009525252387_2_alg».proof.Proof.Gen.KernelIdeal.Skeleton
import proofs.«101779_j19009525252387_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seven host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations followed by the region, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

end Cert.KernelIdeal.GenH

end
-- ==== Proof.KI.Kit.lean ====
/-
  What the three cases of the kernel body share. The grid is 16 batch tiles by 16 steps along the contracted axis;
  a step is the FIRST of its tile (it resets the accumulator to the bias row), the LAST (it applies the gates and
  stores both results), or neither. Here: each window's block at a point, the two conditions in closed form over
  the 256 points, where the two result windows are idle, the staging buffers the body is called with, and the
  frame claim read off a run that ends with every array named.
-/
import proofs.«101779_j19009525252387_2_alg».proof.Proof.KI.Entry

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not: the
    block index has not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not: the
    block index has not moved since the fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not: the
    block index has not moved since the fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not: the
    block index has not moved since the fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not: the
    block index has not moved since the fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not: the
    block index has not moved since the fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array -/

/-- Every argument array ends as launched: a staged argument is its window's array, which the pipeline only reads;
    the others are buffers the region does not touch; and no host operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's two conditions -/

/-- "This is the first step of its batch tile" (the accumulator is reset), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last step of its batch tile" (the gates are applied and both results stored). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output window 6 is stored only at the last step of the accumulation: idle, and not written back, elsewhere. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
/-- Output window 7 is stored only at the last step of the accumulation: idle, and not written back, elsewhere. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The buffers the body is called with -/

/-- One staging buffer of each result window, through which its contents are stated. -/
abbrev VO0_6 : View sig .tc .vmem S512x2048 .f32 := (Memref.whole cc0_stg6_0 : Memref sig .tc .vmem S512x2048 .f32).view
abbrev VO0_7 : View sig .tc .vmem S512x2048 .f32 := (Memref.whole cc0_stg7_0 : Memref sig .tc .vmem S512x2048 .f32).view
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0_0 : Memref sig .tc .vmem S512x8192 .f32 := Memref.whole cc0_scratch0
abbrev VS0_0 : View sig .tc .vmem S512x8192 .f32 := scM0_0.view

/-- What the region hands the body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.GenH

end
-- ==== Proof.KI.RunA.lean ====
/-
  The kernel body run once, at the FIRST step of a batch tile (not the last): the accumulator is reset to the bias row and the step's two products are added; the result windows are left untouched.
  The run's witness is the list of stores each buffer ends with; the triple says the body, handed the input blocks at
  their contents, returns them unchanged with those stores written.
-/
import proofs.«101779_j19009525252387_2_alg».proof.Proof.KI.Kit

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves (last first) in this case, with the body's triple on whole staging buffers. -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) :
    { LS0 : List (View.Piece (Elt F) S512x8192 .f32) //
      ∀ (xi6 xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun xi6 xi7 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.GenH

end
-- ==== Proof.KI.RunB.lean ====
/-
  The kernel body run once, at a MIDDLE step of a batch tile: the step's two products are added to the accumulator the step before left; the result windows are left untouched.
  The run's witness is the list of stores each buffer ends with; the triple says the body, handed the input blocks at
  their contents, returns them unchanged with those stores written.
-/
import proofs.«101779_j19009525252387_2_alg».proof.Proof.KI.RunA

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves (last first) in this case, with the body's triple on whole staging buffers. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    { LS0 : List (View.Piece (Elt F) S512x8192 .f32) //
      ∀ (xi6 xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun xi6 xi7 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.GenH

end
-- ==== Proof.KI.RunC.lean ====
/-
  The kernel body run once, at the LAST step of a batch tile: the step's two products are added to the accumulator the step before left, the gates are applied to it and both result blocks are stored.
  The run's witness is the list of stores each buffer ends with; the triple says the body, handed the input blocks at
  their contents, returns them unchanged with those stores written.
-/
import proofs.«101779_j19009525252387_2_alg».proof.Proof.KI.RunB

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves (last first) in this case, with the body's triple on whole staging buffers. -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    Σ' (L6 : List (View.Piece (Elt F) S512x2048 .f32)) (L7 : List (View.Piece (Elt F) S512x2048 .f32)), { LS0 : List (View.Piece (Elt F) S512x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.GenH

end
-- ==== Proof.KI.Frame.lean ====
/-
  The accumulation over the grid and the run of the whole program.

  After each point the accumulator holds what that point's case left in it — the bias row plus the first step's two
  products at the first step of a batch tile, the previous contents plus this step's two products afterwards — and the
  two result windows hold, at the last step of a tile, the gates applied to the accumulator. `outsAt0` states this by
  recursion on the point; the region's invariant carries the accumulator from point to point; the body's triple at
  each point is its case's run; and the launch of the region gives the run of @main with every array named, whence
  the frame: every argument array ends as launched.
-/
import proofs.«101779_j19009525252387_2_alg».proof.Proof.KI.RunC

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What an idle result window is said to hold: nothing consults it (the window is neither written back nor read). -/
def idleOut : Vec F S512x2048 .f32 := VO0_6.read (Elt F) (VO0_6.writes (Elt F) VO0_6.junk [])

/-! ## What each case leaves -/

/-- The first step's stores cover the accumulator. -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (y : S512x8192.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S512x8192.size (by sl_kernel_rfl) y

/-- What the first step leaves in the accumulator: its stores read back. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) : Vec F S512x8192 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).1)

/-- A middle step's store covers the accumulator. -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x8192.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S512x8192.size (by sl_kernel_rfl) y

/-- What a middle step leaves in the accumulator. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x8192 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).1)

/-- The last step's store covers the accumulator, -/
theorem scover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x8192.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.2.1 S512x8192.size (by sl_kernel_rfl) y

/-- and each result window's store covers its block. -/
theorem cover0_C_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S512x2048.size (by sl_kernel_rfl) y
theorem cover0_C_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.1 S512x2048.size (by sl_kernel_rfl) y

/-- What the last step leaves in the accumulator and in the two result windows. -/
def sout0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x8192 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)
def out0_C_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)
def out0_C_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) : Vec F S512x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)

/-! ## The same at a point of the grid, on the buffers and blocks the pipeline hands the body there -/

def soutA (c : Dev nD) (t : Fin cfg0.N) (h0 : t.val % 16 = 0) (h1 : ¬t.val % 16 = 15) : Vec F S512x8192 .f32 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
def soutB (c : Dev nD) (t : Fin cfg0.N) (h0 : ¬t.val % 16 = 0) (h1 : ¬t.val % 16 = 15) (xs0 : Vec F S512x8192 .f32) : Vec F S512x8192 .f32 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0
def soutC (c : Dev nD) (t : Fin cfg0.N) (h0 : ¬t.val % 16 = 0) (h1 : t.val % 16 = 15) (xs0 : Vec F S512x8192 .f32) : Vec F S512x8192 .f32 :=
  sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0
def outC6 (c : Dev nD) (t : Fin cfg0.N) (h0 : ¬t.val % 16 = 0) (h1 : t.val % 16 = 15) (xs0 : Vec F S512x8192 .f32) : Vec F S512x2048 .f32 :=
  out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0
def outC7 (c : Dev nD) (t : Fin cfg0.N) (h0 : ¬t.val % 16 = 0) (h1 : t.val % 16 = 15) (xs0 : Vec F S512x8192 .f32) : Vec F S512x2048 .f32 :=
  out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0

/-! ## What the result windows and the accumulator hold after each point -/

/-- THE ACCUMULATION: after the body at position `n`, the two result windows' staging buffers and the accumulator —
    the case the position selects (first, middle or last step of its tile), a later step over what the step before
    left in the accumulator. -/
def outsAt0 (c : Dev nD) : (n : ℕ) → n < cfg0.N → Vec F S512x2048 .f32 × Vec F S512x2048 .f32 × Vec F S512x8192 .f32
  | 0, hn => (idleOut, idleOut, soutA m c ⟨0, hn⟩ (Nat.zero_mod _) (by show ¬(0 % 16 = 15); decide))
  | n + 1, hn =>
    if h0 : (n + 1) % 16 = 0 then
      if h1 : (n + 1) % 16 = 15 then
        False.elim (by omega)
      else
        (idleOut, idleOut, soutA m c ⟨n + 1, hn⟩ h0 h1)
    else
      if h1 : (n + 1) % 16 = 15 then
        (outC6 m c ⟨n + 1, hn⟩ h0 h1 (outsAt0 c n (Nat.lt_of_succ_lt hn)).2.2, outC7 m c ⟨n + 1, hn⟩ h0 h1 (outsAt0 c n (Nat.lt_of_succ_lt hn)).2.2, soutC m c ⟨n + 1, hn⟩ h0 h1 (outsAt0 c n (Nat.lt_of_succ_lt hn)).2.2)
      else
        (idleOut, idleOut, soutB m c ⟨n + 1, hn⟩ h0 h1 (outsAt0 c n (Nat.lt_of_succ_lt hn)).2.2)

theorem outsAt0_A (c : Dev nD) (t : Fin cfg0.N) (h0 : t.val % 16 = 0) (h1 : ¬t.val % 16 = 15) :
    outsAt0 m c t.val t.isLt = (idleOut, idleOut, soutA m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (idleOut, idleOut, soutB m c t h0 h1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (outC6 m c t h0 h1 (outsAt0 m c (t.val - 1) (Nat.lt_of_le_of_lt (Nat.sub_le _ _) t.isLt)).2.2, outC7 m c t h0 h1 (outsAt0 m c (t.val - 1) (Nat.lt_of_le_of_lt (Nat.sub_le _ _) t.isLt)).2.2, soutC m c t h0 h1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body at a point each input's buffer at its block and the result
    windows' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the point's position in its batch tile says which
    case it is in; the invariant hands the body the accumulator at what the point before left (at anything at the very
    first point) and takes it back at this point's contents; the result windows are handed back untouched except at a
    tile's last step, where they hold the gates' results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold soutA sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold outC6 outC7 soutC out0_C_6 out0_C_7 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold soutB sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has each array of the pipeline at what the
    proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.GenH

end
-- ==== Proof.Spec.lean ====
/-
  The LSTM cell as one function of the argument arrays, index by index, over the extended reals.

  The four gates' weight matrices are stacked row-wise in the order input, forget, output, candidate, and the
  stacked matrix multiplies the row `[x, h]` (the input beside the hidden state):
    pre r J = (∑ kk < 4096, [x, h] r kk * W J kk) + b J                     (J < 8192),
    cNew r j = σ (pre r (2048 + j)) * c r j + σ (pre r j) * tanh (pre r (6144 + j)),
    hNew r j = σ (pre r (4096 + j)) * tanh (cNew r j)                       (j < 2048),
  with σ the logistic function. Both programs compute `hNew` and `cNew`.
-/
import Idealize.ShloMosaic.PureOps.Ideal
import Idealize.ShloMosaic.Lib.ValueIdx

noncomputable section

namespace Cert.LstmSpec

open Idealize.ShloMosaic Idealize.ShloMosaic.ValueIdx

/-- Batch rows by hidden width. -/
abbrev SBH : Shape := ⟨2, ![8192, 2048]⟩
/-- One gate's weight matrix: hidden width by the joined input width. -/
abbrev SW : Shape := ⟨2, ![2048, 4096]⟩
/-- One gate's bias. -/
abbrev Sb : Shape := ⟨1, ![2048]⟩

/-- Row `J` of the four weight matrices stacked in the order input, forget, output, candidate, at column `kk`. -/
def wAll (Wi Wf Wo Wc : FVec Ideal SW .f32) (J : Fin 8192) (kk : Fin 4096) : EReal :=
  if h0 : J.val < 2048 then Wi (ix2 (⟨J.val, h0⟩ : Fin 2048) kk)
  else if h1 : J.val < 4096 then Wf (ix2 (⟨J.val - 2048, by omega⟩ : Fin 2048) kk)
  else if h2 : J.val < 6144 then Wo (ix2 (⟨J.val - 4096, by omega⟩ : Fin 2048) kk)
  else Wc (ix2 (⟨J.val - 6144, by have := J.isLt; omega⟩ : Fin 2048) kk)

/-- Entry `J` of the four biases stacked in the same order. -/
def bAll (bi bf bo bc : FVec Ideal Sb .f32) (J : Fin 8192) : EReal :=
  if h0 : J.val < 2048 then bi (ix1 (⟨J.val, h0⟩ : Fin 2048))
  else if h1 : J.val < 4096 then bf (ix1 (⟨J.val - 2048, by omega⟩ : Fin 2048))
  else if h2 : J.val < 6144 then bo (ix1 (⟨J.val - 4096, by omega⟩ : Fin 2048))
  else bc (ix1 (⟨J.val - 6144, by have := J.isLt; omega⟩ : Fin 2048))

/-- Row `r` of the input joined with the hidden state, at column `kk`. -/
def xh (x h : FVec Ideal SBH .f32) (r : Fin 8192) (kk : Fin 4096) : EReal :=
  if h0 : kk.val < 2048 then x (ix2 r (⟨kk.val, h0⟩ : Fin 2048))
  else h (ix2 r (⟨kk.val - 2048, by have := kk.isLt; omega⟩ : Fin 2048))

section
variable (x h c : FVec Ideal SBH .f32) (Wi Wf Wo Wc : FVec Ideal SW .f32) (bi bf bo bc : FVec Ideal Sb .f32)

/-- The gates before their nonlinearities: the joined row times the stacked weights' row, plus the stacked bias. -/
def pre (r : Fin 8192) (J : Fin 8192) : EReal :=
  (∑ kk : Fin 4096, xh x h r kk * wAll Wi Wf Wo Wc J kk) + bAll bi bf bo bc J

/-- The new cell state. -/
def cNew (r : Fin 8192) (j : Fin 2048) : EReal :=
  Ideal.logistic (pre x h Wi Wf Wo Wc bi bf bo bc r ⟨2048 + j.val, by omega⟩) * c (ix2 r j)
    + Ideal.logistic (pre x h Wi Wf Wo Wc bi bf bo bc r ⟨j.val, by omega⟩)
      * Ideal.tanh (pre x h Wi Wf Wo Wc bi bf bo bc r ⟨6144 + j.val, by omega⟩)

/-- The new hidden state. -/
def hNew (r : Fin 8192) (j : Fin 2048) : EReal :=
  Ideal.logistic (pre x h Wi Wf Wo Wc bi bf bo bc r ⟨4096 + j.val, by omega⟩)
    * Ideal.tanh (cNew x h c Wi Wf Wo Wc bi bf bo bc r j)

/-- The new cell state as an array. -/
def Gc : FVec Ideal SBH .f32 := fun i => cNew x h c Wi Wf Wo Wc bi bf bo bc (i 0) (i 1)

/-- The new hidden state as an array. -/
def Gh : FVec Ideal SBH .f32 := fun i => hNew x h c Wi Wf Wo Wc bi bf bo bc (i 0) (i 1)

end

end Cert.LstmSpec

end
-- ==== Proof.LibStack4.lean ====
/-
  Four arrays of one shape laid end to end along their first axis, read at an index: the stacked gate weights
  and the stacked gate biases of the cell are the specification's piecewise functions `wAll` and `bAll`.
-/
import Idealize.ShloMosaic.Lib.Pipeline.Value
import proofs.«101779_j19009525252387_2_alg».proof.Proof.Spec

noncomputable section

namespace Cert.Stack4

open Idealize.ShloMosaic Idealize.ShloMosaic.ValueIdx

/-- Four matrices of `n` rows and `p` columns stacked along the rows, read at row `q * n + r` (`q < 4`, `r < n`)
    and column `kk`: matrix number `q` at row `r`, column `kk`. -/
theorem concat4_rows {α : Type} {n p N : Nat} (X0 X1 X2 X3 : (⟨2, ![n, p]⟩ : Shape).Idx → α)
    (hc : Shape.Concatenates [(⟨2, ![n, p]⟩ : Shape), ⟨2, ![n, p]⟩, ⟨2, ![n, p]⟩, ⟨2, ![n, p]⟩] (⟨2, ![N, p]⟩ : Shape) 0)
    (J : Fin N) (kk : Fin p) (q : Nat) (hq : q < 4) (r : Fin n) (hJ : q * n + r.val = J.val)
    (X : (⟨2, ![n, p]⟩ : Shape).Idx → α)
    (hX : ([(⟨(⟨2, ![n, p]⟩ : Shape), X0⟩ : (s : Shape) × (s.Idx → α)), ⟨_, X1⟩, ⟨_, X2⟩, ⟨_, X3⟩])[q]'(by simpa using hq)
      = ⟨(⟨2, ![n, p]⟩ : Shape), X⟩) :
    concatenate (⟨2, ![N, p]⟩ : Shape) 0 [⟨(⟨2, ![n, p]⟩ : Shape), X0⟩, ⟨_, X1⟩, ⟨_, X2⟩, ⟨_, X3⟩] hc (ix2 J kk)
      = X (ix2 r kk) := by
  refine concatenate_apply_piece (t := (⟨2, ![N, p]⟩ : Shape)) (0 : Fin 2)
    [⟨(⟨2, ![n, p]⟩ : Shape), X0⟩, ⟨(⟨2, ![n, p]⟩ : Shape), X1⟩, ⟨(⟨2, ![n, p]⟩ : Shape), X2⟩, ⟨(⟨2, ![n, p]⟩ : Shape), X3⟩] hc (ix2 J kk) q (by simpa using hq) _ X hX rfl (q * n) ?_ (ix2 r kk) ?_ ?_
  · match q, hq with
    | 0, _ => simp
    | 1, _ => simp
    | 2, _ => simp; omega
    | 3, _ => simp; omega
  · intro b hb
    match b, hb with
    | ⟨0, _⟩, hb => exact absurd rfl hb
    | ⟨1, _⟩, _ => rfl
  · exact hJ

/-- Four vectors of length `n` laid end to end, read at entry `q * n + r` (`q < 4`, `r < n`): vector number `q`
    at entry `r`. -/
theorem concat4_vec {α : Type} {n N : Nat} (X0 X1 X2 X3 : (⟨1, ![n]⟩ : Shape).Idx → α)
    (hc : Shape.Concatenates [(⟨1, ![n]⟩ : Shape), ⟨1, ![n]⟩, ⟨1, ![n]⟩, ⟨1, ![n]⟩] (⟨1, ![N]⟩ : Shape) 0)
    (J : Fin N) (q : Nat) (hq : q < 4) (r : Fin n) (hJ : q * n + r.val = J.val)
    (X : (⟨1, ![n]⟩ : Shape).Idx → α)
    (hX : ([(⟨(⟨1, ![n]⟩ : Shape), X0⟩ : (s : Shape) × (s.Idx → α)), ⟨_, X1⟩, ⟨_, X2⟩, ⟨_, X3⟩])[q]'(by simpa using hq)
      = ⟨(⟨1, ![n]⟩ : Shape), X⟩) :
    concatenate (⟨1, ![N]⟩ : Shape) 0 [⟨(⟨1, ![n]⟩ : Shape), X0⟩, ⟨_, X1⟩, ⟨_, X2⟩, ⟨_, X3⟩] hc (ix1 J)
      = X (ix1 r) := by
  refine concatenate_apply_piece (t := (⟨1, ![N]⟩ : Shape)) (0 : Fin 1)
    [⟨(⟨1, ![n]⟩ : Shape), X0⟩, ⟨(⟨1, ![n]⟩ : Shape), X1⟩, ⟨(⟨1, ![n]⟩ : Shape), X2⟩, ⟨(⟨1, ![n]⟩ : Shape), X3⟩] hc (ix1 J) q (by simpa using hq) _ X hX rfl (q * n) ?_ (ix1 r) ?_ ?_
  · match q, hq with
    | 0, _ => simp
    | 1, _ => simp
    | 2, _ => simp; omega
    | 3, _ => simp; omega
  · intro b hb
    match b, hb with
    | ⟨0, _⟩, hb => exact absurd rfl hb
  · exact hJ

/-- The four gates' weight matrices stacked along the rows in the order input, forget, output, candidate, read at
    row `J` and column `kk`, is the specification's stacked matrix `wAll` there. -/
theorem concat_w (Wi Wf Wo Wc : FVec Ideal Cert.LstmSpec.SW .f32)
    (hc : Shape.Concatenates [Cert.LstmSpec.SW, Cert.LstmSpec.SW, Cert.LstmSpec.SW, Cert.LstmSpec.SW]
      (⟨2, ![8192, 4096]⟩ : Shape) 0) (J : Fin 8192) (kk : Fin 4096) :
    concatenate (⟨2, ![8192, 4096]⟩ : Shape) 0
        [⟨Cert.LstmSpec.SW, Wi⟩, ⟨Cert.LstmSpec.SW, Wf⟩, ⟨Cert.LstmSpec.SW, Wo⟩, ⟨Cert.LstmSpec.SW, Wc⟩] hc (ix2 J kk)
      = Cert.LstmSpec.wAll Wi Wf Wo Wc J kk := by
  unfold Cert.LstmSpec.wAll
  split_ifs with h0 h1 h2
  · exact concat4_rows Wi Wf Wo Wc hc J kk 0 (by omega) ⟨J.val, h0⟩ (by simp) Wi rfl
  · exact concat4_rows Wi Wf Wo Wc hc J kk 1 (by omega) ⟨J.val - 2048, by omega⟩ (by simp; omega) Wf rfl
  · exact concat4_rows Wi Wf Wo Wc hc J kk 2 (by omega) ⟨J.val - 4096, by omega⟩ (by simp; omega) Wo rfl
  · exact concat4_rows Wi Wf Wo Wc hc J kk 3 (by omega) ⟨J.val - 6144, by have := J.isLt; omega⟩
      (by have := J.isLt; simp; omega) Wc rfl

/-- The four gates' biases laid end to end in the same order, read at entry `J`, is the specification's stacked
    bias `bAll` there. -/
theorem concat_b (bi bf bo bc : FVec Ideal Cert.LstmSpec.Sb .f32)
    (hc : Shape.Concatenates [Cert.LstmSpec.Sb, Cert.LstmSpec.Sb, Cert.LstmSpec.Sb, Cert.LstmSpec.Sb]
      (⟨1, ![8192]⟩ : Shape) 0) (J : Fin 8192) :
    concatenate (⟨1, ![8192]⟩ : Shape) 0
        [⟨Cert.LstmSpec.Sb, bi⟩, ⟨Cert.LstmSpec.Sb, bf⟩, ⟨Cert.LstmSpec.Sb, bo⟩, ⟨Cert.LstmSpec.Sb, bc⟩] hc (ix1 J)
      = Cert.LstmSpec.bAll bi bf bo bc J := by
  unfold Cert.LstmSpec.bAll
  split_ifs with h0 h1 h2
  · exact concat4_vec bi bf bo bc hc J 0 (by omega) ⟨J.val, h0⟩ (by simp) bi rfl
  · exact concat4_vec bi bf bo bc hc J 1 (by omega) ⟨J.val - 2048, by omega⟩ (by simp; omega) bf rfl
  · exact concat4_vec bi bf bo bc hc J 2 (by omega) ⟨J.val - 4096, by omega⟩ (by simp; omega) bo rfl
  · exact concat4_vec bi bf bo bc hc J 3 (by omega) ⟨J.val - 6144, by have := J.isLt; omega⟩
      (by have := J.isLt; simp; omega) bc rfl

end Cert.Stack4

end
-- ==== Proof.RefSpec.lean ====
/-
  The reference program computes the specification: its first result is the new hidden state `Gh` and its second the
  new cell state `Gc` of the LSTM cell, as functions of the argument arrays.

  Read index by index. At row `r` and stacked-gate column `J` the reference's pre-activation is the contraction over
  `k < 4096` of the joined row `[x, h] r k` with the transposed stack of the four weight matrices at `(k, J)`, which
  is the stack's row `J` at column `k`, plus the stacked bias at `J` broadcast over the rows: the specification's
  `pre r J`. The four column slices at offsets 0, 2048, 4096 and 6144 are the input, forget, output and candidate
  gates; the host's `1 / (1 + exp (-z))` with both ones the word of `1.0` is the logistic function, and the rest is
  pointwise.
-/
import proofs.«101779_j19009525252387_2_alg».proof.Proof.Gen.ReferenceIdeal.Read
import proofs.«101779_j19009525252387_2_alg».proof.Proof.Spec
import proofs.«101779_j19009525252387_2_alg».proof.Proof.LibStack4

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.LstmSpec

/-- The word of `1.0` denotes the extended real `1`. -/
theorem ofBits_one : FloatOps.ofBits (F := Ideal) .f32 0x3F800000#32 = (1 : Ideal .f32) := by
  show Ideal.ofBits .f32 0x3F800000#32 = 1
  simp [Ideal.ofBits, Ideal.ieee, -EReal.coe_mul]; norm_num

/-- The host's `1 / (1 + exp (-z))`, its two ones spelt as the word of `1.0`, is the logistic function. -/
theorem host_logistic (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  rw [ofBits_one]; rfl

/-- The input joined with the hidden state along the columns, at row `r` and column `k`. -/
theorem joined_at (x h : FVec Ideal SBH .f32) (r : Fin 8192) (k : Fin 4096) :
    val_main_v0 (F := Ideal) x h (ix2 r k) = xh x h r k := by
  unfold val_main_v0 xh
  by_cases h0 : k.val < 2048
  · rw [dif_pos h0]
    exact concatenate_pair_apply_left (1 : Fin S8192x4096.rank) x h concatenates_S8192x2048_S8192x2048_S8192x4096_d1
      (ix2 r k) rfl (ix2 r (⟨k.val, h0⟩ : Fin 2048)) (fun b => match b with | ⟨0, _⟩ => rfl | ⟨1, _⟩ => rfl)
  · rw [dif_neg h0]
    exact concatenate_pair_apply_right (1 : Fin S8192x4096.rank) x h concatenates_S8192x2048_S8192x2048_S8192x4096_d1
      (ix2 r k) rfl rfl (ix2 r (⟨k.val - 2048, by have := k.isLt; omega⟩ : Fin 2048))
      (fun b hb => match b, hb with | ⟨0, _⟩, _ => rfl | ⟨1, _⟩, hb => absurd rfl hb)
      (by show (k.val - 2048) + 2048 = k.val; omega)

section
variable (x h c : FVec Ideal SBH .f32) (Wi Wf Wo Wc : FVec Ideal SW .f32) (bi bf bo bc : FVec Ideal Sb .f32)

/-- The transposed stack of the four weight matrices at `(k, J)` is the stack's row `J` at column `k`. -/
theorem weightsT_at (k : Fin 4096) (J : Fin 8192) :
    val_main_v3 (F := Ideal) Wi Wf Wc Wo (ix2 k J) = wAll Wi Wf Wo Wc J k := by
  have e : idx_main_v3 (ix2 k J) = ix2 J k :=
    funext fun a => Fin.ext (by match a with | ⟨0, _⟩ => rfl | ⟨1, _⟩ => rfl)
  refine (val_main_v3_apply (F := Ideal) Wi Wf Wc Wo (ix2 k J)).trans ?_
  rw [e]
  unfold val_main_v1
  exact Cert.Stack4.concat_w Wi Wf Wo Wc _ J k

/-- The contraction at `(r, J)`: the joined row `r` against row `J` of the stacked weights. -/
theorem dot_at (r J : Fin 8192) :
    val_main_v4 (F := Ideal) x h Wi Wf Wc Wo (ix2 r J) = ∑ k : Fin 4096, xh x h r k * wAll Wi Wf Wo Wc J k := by
  refine (val_main_v4_apply x h Wi Wf Wc Wo (ix2 r J)).trans ?_
  refine Finset.sum_congr rfl fun k _ => ?_
  have el : lidx_main_v4 (ix2 r J) k = ix2 r k :=
    funext fun a => Fin.ext (by match a with | ⟨0, _⟩ => rfl | ⟨1, _⟩ => rfl)
  have er : ridx_main_v4 (ix2 r J) k = ix2 k J :=
    funext fun a => Fin.ext (by match a with | ⟨0, _⟩ => rfl | ⟨1, _⟩ => rfl)
  rw [el, er, joined_at, weightsT_at]

/-- The stacked bias broadcast over the rows, at `(r, J)`. -/
theorem bias_at (r J : Fin 8192) :
    val_main_v6 (F := Ideal) bi bf bc bo (ix2 r J) = bAll bi bf bo bc J := by
  have e : idx_main_v5 (idx_main_v6 (ix2 r J)) = ix1 J :=
    funext fun a => Fin.ext (by match a with | ⟨0, _⟩ => rfl)
  refine (val_main_v6_apply (F := Ideal) bi bf bc bo (ix2 r J)).trans ?_
  refine (val_main_v5_apply (F := Ideal) bi bf bc bo _).trans ?_
  rw [e]
  unfold val_main_v2
  exact Cert.Stack4.concat_b bi bf bo bc _ J

/-- The four gates before their nonlinearities, at `(r, J)`. -/
theorem pre_at (r J : Fin 8192) :
    val_main_v7 (F := Ideal) x h Wi bi Wf bf Wc bc Wo bo (ix2 r J) = pre x h Wi Wf Wo Wc bi bf bo bc r J := by
  rw [val_main_v7_apply, dot_at, bias_at]
  rfl

/-- The input gate's slice. -/
theorem slice_i_at (r : Fin 8192) (j : Fin 2048) :
    val_main_v8 (F := Ideal) x h Wi bi Wf bf Wc bc Wo bo (ix2 r j)
      = pre x h Wi Wf Wo Wc bi bf bo bc r ⟨j.val, by omega⟩ := by
  have e : idx_main_v8 (ix2 r j) = ix2 r (⟨j.val, by omega⟩ : Fin 8192) :=
    funext fun a => Fin.ext (by match a with | ⟨0, _⟩ => rfl | ⟨1, _⟩ => rfl)
  rw [val_main_v8_apply, e, pre_at]

/-- The forget gate's slice. -/
theorem slice_f_at (r : Fin 8192) (j : Fin 2048) :
    val_main_v9 (F := Ideal) x h Wi bi Wf bf Wc bc Wo bo (ix2 r j)
      = pre x h Wi Wf Wo Wc bi bf bo bc r ⟨2048 + j.val, by omega⟩ := by
  have e : idx_main_v9 (ix2 r j) = ix2 r (⟨2048 + j.val, by omega⟩ : Fin 8192) :=
    funext fun a => Fin.ext (by match a with | ⟨0, _⟩ => rfl | ⟨1, _⟩ => rfl)
  rw [val_main_v9_apply, e, pre_at]

/-- The output gate's slice. -/
theorem slice_o_at (r : Fin 8192) (j : Fin 2048) :
    val_main_v10 (F := Ideal) x h Wi bi Wf bf Wc bc Wo bo (ix2 r j)
      = pre x h Wi Wf Wo Wc bi bf bo bc r ⟨4096 + j.val, by omega⟩ := by
  have e : idx_main_v10 (ix2 r j) = ix2 r (⟨4096 + j.val, by omega⟩ : Fin 8192) :=
    funext fun a => Fin.ext (by match a with | ⟨0, _⟩ => rfl | ⟨1, _⟩ => rfl)
  rw [val_main_v10_apply, e, pre_at]

/-- The candidate's slice. -/
theorem slice_g_at (r : Fin 8192) (j : Fin 2048) :
    val_main_v11 (F := Ideal) x h Wi bi Wf bf Wc bc Wo bo (ix2 r j)
      = pre x h Wi Wf Wo Wc bi bf bo bc r ⟨6144 + j.val, by omega⟩ := by
  have e : idx_main_v11 (ix2 r j) = ix2 r (⟨6144 + j.val, by omega⟩ : Fin 8192) :=
    funext fun a => Fin.ext (by match a with | ⟨0, _⟩ => rfl | ⟨1, _⟩ => rfl)
  rw [val_main_v11_apply, e, pre_at]

/-- The input gate. -/
theorem gate_i_at (r : Fin 8192) (j : Fin 2048) :
    val_main_v17 (F := Ideal) x h Wi bi Wf bf Wc bc Wo bo (ix2 r j)
      = Ideal.logistic (pre x h Wi Wf Wo Wc bi bf bo bc r ⟨j.val, by omega⟩) := by
  rw [val_main_v17_apply, val_main_v16_apply, val_main_cst_0_apply, val_main_v15_apply, val_main_v14_apply,
    val_main_cst_apply, val_main_v13_apply, val_main_v12_apply, slice_i_at]
  exact host_logistic _

/-- The forget gate. -/
theorem gate_f_at (r : Fin 8192) (j : Fin 2048) :
    val_main_v23 (F := Ideal) x h Wi bi Wf bf Wc bc Wo bo (ix2 r j)
      = Ideal.logistic (pre x h Wi Wf Wo Wc bi bf bo bc r ⟨2048 + j.val, by omega⟩) := by
  rw [val_main_v23_apply, val_main_v22_apply, val_main_cst_2_apply, val_main_v21_apply, val_main_v20_apply,
    val_main_cst_1_apply, val_main_v19_apply, val_main_v18_apply, slice_f_at]
  exact host_logistic _

/-- The output gate. -/
theorem gate_o_at (r : Fin 8192) (j : Fin 2048) :
    val_main_v29 (F := Ideal) x h Wi bi Wf bf Wc bc Wo bo (ix2 r j)
      = Ideal.logistic (pre x h Wi Wf Wo Wc bi bf bo bc r ⟨4096 + j.val, by omega⟩) := by
  rw [val_main_v29_apply, val_main_v28_apply, val_main_cst_4_apply, val_main_v27_apply, val_main_v26_apply,
    val_main_cst_3_apply, val_main_v25_apply, val_main_v24_apply, slice_o_at]
  exact host_logistic _

/-- The candidate. -/
theorem cand_at (r : Fin 8192) (j : Fin 2048) :
    val_main_v30 (F := Ideal) x h Wi bi Wf bf Wc bc Wo bo (ix2 r j)
      = Ideal.tanh (pre x h Wi Wf Wo Wc bi bf bo bc r ⟨6144 + j.val, by omega⟩) := by
  rw [val_main_v30_apply, slice_g_at]
  rfl

/-- The reference's new cell state at `(r, j)`. -/
theorem cell_at (r : Fin 8192) (j : Fin 2048) :
    val_main_v33 (F := Ideal) x h c Wi bi Wf bf Wc bc Wo bo (ix2 r j) = cNew x h c Wi Wf Wo Wc bi bf bo bc r j := by
  rw [val_main_v33_apply, val_main_v31_apply, val_main_v32_apply, gate_f_at, gate_i_at, cand_at]
  rfl

/-- The reference's new hidden state at `(r, j)`. -/
theorem hidden_at (r : Fin 8192) (j : Fin 2048) :
    val_main_v35 (F := Ideal) x h c Wi bi Wf bf Wc bc Wo bo (ix2 r j) = hNew x h c Wi Wf Wo Wc bi bf bo bc r j := by
  rw [val_main_v35_apply, val_main_v34_apply, gate_o_at, cell_at]
  rfl

/-- The reference's second result is the specification's new cell state. -/
theorem ref_c : val_main_v33 (F := Ideal) x h c Wi bi Wf bf Wc bc Wo bo = Gc x h c Wi Wf Wo Wc bi bf bo bc := by
  funext i
  obtain ⟨r, j, rfl⟩ : ∃ (r : Fin 8192) (j : Fin 2048), i = ix2 r j := ⟨i 0, i 1, eq_ix2 i⟩
  exact cell_at x h c Wi Wf Wo Wc bi bf bo bc r j

/-- The reference's first result is the specification's new hidden state. -/
theorem ref_h : val_main_v35 (F := Ideal) x h c Wi bi Wf bf Wc bc Wo bo = Gh x h c Wi Wf Wo Wc bi bf bo bc := by
  funext i
  obtain ⟨r, j, rfl⟩ : ∃ (r : Fin 8192) (j : Fin 2048), i = ix2 r j := ⟨i 0, i 1, eq_ix2 i⟩
  exact hidden_at x h c Wi Wf Wo Wc bi bf bo bc r j

end

/-- On every device, from any memory with zero counters, every weakly fair execution of the reference terminates with
    its first result the specification's new hidden state and its second the new cell state, of the arguments' launch
    contents, and the arguments unchanged. -/
theorem run_spec (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v35) = Cert.LstmSpec.Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg9)) (m ((c.tc : Thread nD τ).loc main_arg7)) (m ((c.tc : Thread nD τ).loc main_arg4)) (m ((c.tc : Thread nD τ).loc main_arg6)) (m ((c.tc : Thread nD τ).loc main_arg10)) (m ((c.tc : Thread nD τ).loc main_arg8))
      ∧ r.2.mem ((c.tc : Thread nD τ).loc main_v33) = Cert.LstmSpec.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg9)) (m ((c.tc : Thread nD τ).loc main_arg7)) (m ((c.tc : Thread nD τ).loc main_arg4)) (m ((c.tc : Thread nD τ).loc main_arg6)) (m ((c.tc : Thread nD τ).loc main_arg10)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run Cert.ReferenceIdeal.defs _ _).mono (fun _ hr c =>
    ⟨(hr c).1.trans ((val_main_v35_eq (F := Ideal) m c).trans (ref_h _ _ _ _ _ _ _ _ _ _ _)),
      (hr c).2.1.trans ((val_main_v33_eq (F := Ideal) _ _ _ _ _ _ _ _ _ _ _).trans (ref_c _ _ _ _ _ _ _ _ _ _ _)),
      (hr c).2.2⟩)
    (Cert.ReferenceIdeal.Value.run (F := Ideal) m ρ)

end Cert.ReferenceIdeal.RefValue

end
-- ==== Proof.EntryValues.lean ====
/-
  What the kernel's region finds in the three buffers the host prepared before it: the stacked gate weights,
  transposed, cut into the half that multiplies the input and the half that multiplies the hidden state, and the
  stacked gate biases as a one-row matrix — each read at an index in the specification's terms.
-/
import proofs.«101779_j19009525252387_2_alg».proof.Proof.KI.Entry
import proofs.«101779_j19009525252387_2_alg».proof.Proof.LibStack4
import proofs.«101779_j19009525252387_2_alg».proof.Proof.Spec
import Idealize.ShloMosaic.Lib.StableHlo.Run
import Idealize.ShloMosaic.Lib.ValueLayout
import Idealize.ShloMosaic.Lib.ValueIdx

set_option maxRecDepth 16384

noncomputable section

namespace Cert.KernelIdeal.Entry

open Cert.KernelIdeal Cert.KernelIdeal.Gen Cert.KernelIdeal.GenH
open Idealize.ShloMosaic Idealize.ShloMosaic.TcCoe Idealize.ShloMosaic.ValueIdx Idealize.ShloMosaic.StableHlo

variable (m : (ℓ : Loc nD τ sig) → Buf (Elt Ideal) ℓ)

/-- The four gates' weight matrices stacked along the rows, as the host lays them. -/
abbrev wStack (c : Dev nD) : FVec Ideal S8192x4096 .f32 :=
  concatenate S8192x4096 0
    [⟨S2048x4096, m ((c : Thread nD τ).loc main_arg3)⟩, ⟨S2048x4096, m ((c : Thread nD τ).loc main_arg5)⟩,
     ⟨S2048x4096, m ((c : Thread nD τ).loc main_arg9)⟩, ⟨S2048x4096, m ((c : Thread nD τ).loc main_arg7)⟩]
    concatenates_S2048x4096_S2048x4096_S2048x4096_S2048x4096_S8192x4096_d0

/-- The input half of the transposed stacked weights is the slice at row 0 of the rounded transpose of the stack. -/
theorem V_v5_term (c : Dev nD) :
    (V (F := Ideal) m c main_v5 : S2048x8192.Idx → EReal)
      = extractStridedSlice S2048x8192 ![0, 0]
          (truncf .bf16 (transpose S4096x8192 [1, 0] (wStack m c) transposes_S8192x4096_S4096x8192_1_0) bitsLt_bf16_f32)
          slices_S4096x8192_S2048x8192_0_0 := by
  dsimp only [V, Gen.hostOps0]
  after_results
  rfl

/-- The hidden-state half of the transposed stacked weights is the slice at row 2048 of the same rounded transpose. -/
theorem V_v6_term (c : Dev nD) :
    (V (F := Ideal) m c main_v6 : S2048x8192.Idx → EReal)
      = extractStridedSlice S2048x8192 ![2048, 0]
          (truncf .bf16 (transpose S4096x8192 [1, 0] (wStack m c) transposes_S8192x4096_S4096x8192_1_0) bitsLt_bf16_f32)
          slices_S4096x8192_S2048x8192_2048_0 := by
  dsimp only [V, Gen.hostOps0]
  after_results
  rfl

/-- The four gates' biases laid end to end, as the host lays them. -/
abbrev bStack (c : Dev nD) : FVec Ideal S8192 .f32 :=
  concatenate S8192 0
    [⟨S2048, m ((c : Thread nD τ).loc main_arg4)⟩, ⟨S2048, m ((c : Thread nD τ).loc main_arg6)⟩,
     ⟨S2048, m ((c : Thread nD τ).loc main_arg10)⟩, ⟨S2048, m ((c : Thread nD τ).loc main_arg8)⟩]
    concatenates_S2048_S2048_S2048_S2048_S8192_d0

/-- The bias row is the stacked biases given a leading axis of extent one. -/
theorem V_v2_term (c : Dev nD) :
    (V (F := Ideal) m c main_v2 : S1x8192.Idx → EReal) = shapeCast S1x8192 (bStack m c) shapeCasts_S8192_S1x8192 := by
  dsimp only [V, Gen.hostOps0]
  after_results
  rfl

/-- Row `kk`, column `J` of the input half of the transposed stacked weights is the stacked weights' row `J` at
    column `kk` (rounding is the identity over the extended reals). -/
theorem V_v5 (c : Dev nD) (kk : Fin 2048) (J : Fin 8192) :
    V (F := Ideal) m c main_v5 (ix2 kk J)
      = Cert.LstmSpec.wAll (m ((c : Thread nD τ).loc main_arg3)) (m ((c : Thread nD τ).loc main_arg5))
          (m ((c : Thread nD τ).loc main_arg9)) (m ((c : Thread nD τ).loc main_arg7)) J ⟨kk.val, by omega⟩ := by
  refine (congrFun (V_v5_term m c) (ix2 kk J)).trans ?_
  refine (slice2_axis0_apply 0 _ slices_S4096x8192_S2048x8192_0_0 kk J ⟨kk.val, by omega⟩ (Nat.zero_add _).symm).trans ?_
  refine (truncf_apply _ bitsLt_bf16_f32 _).trans ?_
  refine (transpose_ix2_apply _ transposes_S8192x4096_S4096x8192_1_0 ⟨kk.val, by omega⟩ J).trans ?_
  exact Cert.Stack4.concat_w _ _ _ _ concatenates_S2048x4096_S2048x4096_S2048x4096_S2048x4096_S8192x4096_d0 J ⟨kk.val, by omega⟩

/-- Row `kk`, column `J` of the hidden-state half of the transposed stacked weights is the stacked weights' row `J`
    at column `2048 + kk`. -/
theorem V_v6 (c : Dev nD) (kk : Fin 2048) (J : Fin 8192) :
    V (F := Ideal) m c main_v6 (ix2 kk J)
      = Cert.LstmSpec.wAll (m ((c : Thread nD τ).loc main_arg3)) (m ((c : Thread nD τ).loc main_arg5))
          (m ((c : Thread nD τ).loc main_arg9)) (m ((c : Thread nD τ).loc main_arg7)) J ⟨2048 + kk.val, by omega⟩ := by
  refine (congrFun (V_v6_term m c) (ix2 kk J)).trans ?_
  refine (slice2_axis0_apply 2048 _ slices_S4096x8192_S2048x8192_2048_0 kk J ⟨2048 + kk.val, by omega⟩ rfl).trans ?_
  refine (truncf_apply _ bitsLt_bf16_f32 _).trans ?_
  refine (transpose_ix2_apply _ transposes_S8192x4096_S4096x8192_1_0 ⟨2048 + kk.val, by omega⟩ J).trans ?_
  exact Cert.Stack4.concat_w _ _ _ _ concatenates_S2048x4096_S2048x4096_S2048x4096_S2048x4096_S8192x4096_d0 J ⟨2048 + kk.val, by omega⟩

/-- Entry `J` of the bias row is the stacked biases' entry `J`. -/
theorem V_v2 (c : Dev nD) (J : Fin 8192) :
    V (F := Ideal) m c main_v2 (ix2 (0 : Fin 1) J)
      = Cert.LstmSpec.bAll (m ((c : Thread nD τ).loc main_arg4)) (m ((c : Thread nD τ).loc main_arg6))
          (m ((c : Thread nD τ).loc main_arg10)) (m ((c : Thread nD τ).loc main_arg8)) J := by
  refine (congrFun (V_v2_term m c) (ix2 (0 : Fin 1) J)).trans ?_
  refine (shapeCast_a_1a_apply _ shapeCasts_S8192_S1x8192 (0 : Fin 1) J).trans ?_
  exact Cert.Stack4.concat_b _ _ _ _ concatenates_S2048_S2048_S2048_S2048_S8192_d0 J

end Cert.KernelIdeal.Entry

end
-- ==== Proof.BlockReads.lean ====
/-
  Each window's block at a grid point, read at an index: where an element of a block sits in its array. The grid is
  16 batch tiles by 16 steps, point `t` being tile `t / 16` at step `t % 16`; an element of a block sits, on each
  axis, at the block's index times the block's extent plus its own coordinate.
-/
import proofs.«101779_j19009525252387_2_alg».proof.Proof.KI.Kit
import proofs.«101779_j19009525252387_2_alg».proof.Proof.EntryValues
import proofs.«101779_j19009525252387_2_alg».proof.Proof.Spec
import Idealize.ShloMosaic.Lib.Pipeline.Value

set_option maxRecDepth 16384

noncomputable section

namespace Cert.KernelIdeal.Blocks

open Cert.KernelIdeal Cert.KernelIdeal.Gen Cert.KernelIdeal.GenH
open Idealize.ShloMosaic Idealize.ShloMosaic.TcCoe Idealize.ShloMosaic.ValueIdx

variable (m : (ℓ : Loc nD τ sig) → Buf (Elt Ideal) ℓ)

/-- The grid has 256 points. -/
theorem hN : cfg0.N = 256 := N_0

/-- The input window's block index at point `t`: the batch tile and the step. -/
theorem idx0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)

/-- The input block at point `t` is rows `512 (t / 16) …` and columns `128 (t % 16) …` of the input. -/
theorem iblk0_apply (c : Dev nD) (t : Fin cfg0.N) (p : Fin 512) (q : Fin 128) :
    iblk (F := Ideal) m c 0 t (ix2 p q)
      = m ((c : Thread nD τ).loc main_arg0)
          (ix2 (⟨512 * (t.val / 16) + p.val, by have := t.isLt; have := hN; omega⟩ : Fin 8192)
            (⟨128 * (t.val % 16) + q.val, by omega⟩ : Fin 2048)) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * (t.val / 16) + p.val; rw [e0]; omega
  | ⟨1, _⟩ => show win0_0.index t (1 : Fin 2) * 128 + 1 * q.val = 128 * (t.val % 16) + q.val; rw [e1]; omega

/-- The hidden-state window's block index at point `t`: the batch tile and the step. -/
theorem idx1 : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)

/-- The hidden-state block at point `t` is rows `512 (t / 16) …` and columns `128 (t % 16) …` of the hidden state. -/
theorem iblk1_apply (c : Dev nD) (t : Fin cfg0.N) (p : Fin 512) (q : Fin 128) :
    iblk (F := Ideal) m c 1 t (ix2 p q)
      = m ((c : Thread nD τ).loc main_arg1)
          (ix2 (⟨512 * (t.val / 16) + p.val, by have := t.isLt; have := hN; omega⟩ : Fin 8192)
            (⟨128 * (t.val % 16) + q.val, by omega⟩ : Fin 2048)) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t (0 : Fin 2) * 512 + 1 * p.val = 512 * (t.val / 16) + p.val; rw [e0]; omega
  | ⟨1, _⟩ => show win0_1.index t (1 : Fin 2) * 128 + 1 * q.val = 128 * (t.val % 16) + q.val; rw [e1]; omega

/-- The two weight windows' block index at point `t`: the step, and column block 0. -/
theorem idx2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem idx3 : ∀ t : Fin cfg0.N, win0_3.index t (0 : Fin 2) = t.val % 16 ∧ win0_3.index t (1 : Fin 2) = 0 :=
  (by decide +kernel : ∀ t : Fin grid0.N, win0_3.index t (0 : Fin 2) = t.val % 16 ∧ win0_3.index t (1 : Fin 2) = 0)

/-- The input half's weight block at point `t`, at `(q, J)`: the stacked weights' row `J` at column `128 (t % 16) + q`. -/
theorem iblk2_apply (c : Dev nD) (t : Fin cfg0.N) (q : Fin 128) (J : Fin 8192) :
    iblk (F := Ideal) m c 2 t (ix2 q J)
      = Cert.LstmSpec.wAll (m ((c : Thread nD τ).loc main_arg3)) (m ((c : Thread nD τ).loc main_arg5))
          (m ((c : Thread nD τ).loc main_arg9)) (m ((c : Thread nD τ).loc main_arg7)) J
          (⟨128 * (t.val % 16) + q.val, by omega⟩ : Fin 4096) := by
  obtain ⟨e0, e1⟩ := idx2 t
  have key : iblk (F := Ideal) m c 2 t (ix2 q J)
      = V (F := Ideal) m c main_v5 (ix2 (⟨128 * (t.val % 16) + q.val, by omega⟩ : Fin 2048) J) := by
    unfold iblk
    rw [View.read_apply]
    show V m c main_v5 _ = _
    congr 1
    funext a
    apply Fin.ext
    match a with
    | ⟨0, _⟩ => show win0_2.index t (0 : Fin 2) * 128 + 1 * q.val = 128 * (t.val % 16) + q.val; rw [e0]; omega
    | ⟨1, _⟩ => show win0_2.index t (1 : Fin 2) * 8192 + 1 * J.val = J.val; rw [e1]; omega
  exact key.trans (Entry.V_v5 m c (⟨128 * (t.val % 16) + q.val, by omega⟩ : Fin 2048) J)

/-- The hidden-state half's weight block at point `t`, at `(q, J)`: the stacked weights' row `J` at column
    `2048 + 128 (t % 16) + q`. -/
theorem iblk3_apply (c : Dev nD) (t : Fin cfg0.N) (q : Fin 128) (J : Fin 8192) :
    iblk (F := Ideal) m c 3 t (ix2 q J)
      = Cert.LstmSpec.wAll (m ((c : Thread nD τ).loc main_arg3)) (m ((c : Thread nD τ).loc main_arg5))
          (m ((c : Thread nD τ).loc main_arg9)) (m ((c : Thread nD τ).loc main_arg7)) J
          (⟨2048 + (128 * (t.val % 16) + q.val), by omega⟩ : Fin 4096) := by
  obtain ⟨e0, e1⟩ := idx3 t
  have key : iblk (F := Ideal) m c 3 t (ix2 q J)
      = V (F := Ideal) m c main_v6 (ix2 (⟨128 * (t.val % 16) + q.val, by omega⟩ : Fin 2048) J) := by
    unfold iblk
    rw [View.read_apply]
    show V m c main_v6 _ = _
    congr 1
    funext a
    apply Fin.ext
    match a with
    | ⟨0, _⟩ => show win0_3.index t (0 : Fin 2) * 128 + 1 * q.val = 128 * (t.val % 16) + q.val; rw [e0]; omega
    | ⟨1, _⟩ => show win0_3.index t (1 : Fin 2) * 8192 + 1 * J.val = J.val; rw [e1]; omega
  exact key.trans (Entry.V_v6 m c (⟨128 * (t.val % 16) + q.val, by omega⟩ : Fin 2048) J)

/-- The bias window's block is its whole array at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The bias block at any point, at `(0, J)`: the stacked biases' entry `J`. -/
theorem iblk4_apply (c : Dev nD) (t : Fin cfg0.N) (J : Fin 8192) :
    iblk (F := Ideal) m c 4 t (ix2 (0 : Fin 1) J)
      = Cert.LstmSpec.bAll (m ((c : Thread nD τ).loc main_arg4)) (m ((c : Thread nD τ).loc main_arg6))
          (m ((c : Thread nD τ).loc main_arg10)) (m ((c : Thread nD τ).loc main_arg8)) J := by
  obtain ⟨e0, e1⟩ := idx4 t
  have key : iblk (F := Ideal) m c 4 t (ix2 (0 : Fin 1) J) = V (F := Ideal) m c main_v2 (ix2 (0 : Fin 1) J) := by
    unfold iblk
    rw [View.read_apply]
    show V m c main_v2 _ = _
    congr 1
    funext a
    apply Fin.ext
    match a with
    | ⟨0, _⟩ => show win0_4.index t (0 : Fin 2) * 1 + 1 * 0 = 0; rw [e0]
    | ⟨1, _⟩ => show win0_4.index t (1 : Fin 2) * 8192 + 1 * J.val = J.val; rw [e1]; omega
  exact key.trans (Entry.V_v2 m c J)

/-- The cell-state window and the two result windows: block index the batch tile, and column block 0. -/
theorem idx5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)
theorem idx6 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)
theorem idx7 : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)

/-- The old cell state's block at point `t` is rows `512 (t / 16) …` of the old cell state. -/
theorem iblk5_apply (c : Dev nD) (t : Fin cfg0.N) (p : Fin 512) (j : Fin 2048) :
    iblk (F := Ideal) m c 5 t (ix2 p j)
      = m ((c : Thread nD τ).loc main_arg2)
          (ix2 (⟨512 * (t.val / 16) + p.val, by have := t.isLt; have := hN; omega⟩ : Fin 8192) j) := by
  obtain ⟨e0, e1⟩ := idx5 t
  unfold iblk
  rw [View.read_apply]
  show V m c main_arg2 _ = _
  rw [V_main_arg2]
  congr 1
  funext a
  apply Fin.ext
  match a with
  | ⟨0, _⟩ => show win0_5.index t (0 : Fin 2) * 512 + 1 * p.val = 512 * (t.val / 16) + p.val; rw [e0]; omega
  | ⟨1, _⟩ => show win0_5.index t (1 : Fin 2) * 2048 + 1 * j.val = j.val; rw [e1]; omega

/-- An array of the results' shape read through the first result window's block at point `t`: its rows
    `512 (t / 16) …`. -/
theorem blk6_read (G : S8192x2048.Idx → EReal) (t : Fin cfg0.N) (p : Fin 512) (j : Fin 2048) :
    (((cfg0.win 6).blk t).view.read (Elt Ideal) G : S512x2048.Idx → EReal) (ix2 p j)
      = G (ix2 (⟨512 * (t.val / 16) + p.val, by have := t.isLt; have := hN; omega⟩ : Fin 8192) j) := by
  obtain ⟨e0, e1⟩ := idx6 t
  rw [View.read_apply]
  refine congrArg G ?_
  funext a
  apply Fin.ext
  match a with
  | ⟨0, _⟩ => show win0_6.index t (0 : Fin 2) * 512 + 1 * p.val = 512 * (t.val / 16) + p.val; rw [e0]; omega
  | ⟨1, _⟩ => show win0_6.index t (1 : Fin 2) * 2048 + 1 * j.val = j.val; rw [e1]; omega

/-- The same through the second result window's block. -/
theorem blk7_read (G : S8192x2048.Idx → EReal) (t : Fin cfg0.N) (p : Fin 512) (j : Fin 2048) :
    (((cfg0.win 7).blk t).view.read (Elt Ideal) G : S512x2048.Idx → EReal) (ix2 p j)
      = G (ix2 (⟨512 * (t.val / 16) + p.val, by have := t.isLt; have := hN; omega⟩ : Fin 8192) j) := by
  obtain ⟨e0, e1⟩ := idx7 t
  rw [View.read_apply]
  refine congrArg G ?_
  funext a
  apply Fin.ext
  match a with
  | ⟨0, _⟩ => show win0_7.index t (0 : Fin 2) * 512 + 1 * p.val = 512 * (t.val / 16) + p.val; rw [e0]; omega
  | ⟨1, _⟩ => show win0_7.index t (1 : Fin 2) * 2048 + 1 * j.val = j.val; rw [e1]; omega

/-- Every index of the first result array is in the block written back at the last step of its batch tile: row `r`
    is covered by point `16 (r / 512) + 15`. -/
theorem cover6 (c : Dev nD) : ∀ i : ((cfg0.win 6).arr.view.loc (c.tc : Thread nD τ)).2.ty.Idx,
    ∃ t : Fin cfg0.N, (cfg0.win 6).flush t = true ∧ i ∈ ((cfg0.win 6).blk t).view.set := by
  intro i
  have hi0 : (i 0).val < 8192 := (i 0).isLt
  have hi1 : (i 1).val < 2048 := (i 1).isLt
  obtain ⟨t, ht⟩ : ∃ t : Fin cfg0.N, t.val = 16 * ((i 0).val / 512) + 15 := ⟨⟨_, by rw [hN]; omega⟩, rfl⟩
  obtain ⟨e0, e1⟩ := idx6 t
  refine ⟨t, (flush0_6 t).mpr (by omega), ?_⟩
  show i ∈ ((View.whole main_v7_0).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0]; omega
  | ⟨1, _⟩ =>
    show win0_6.index t (1 : Fin 2) * 2048 ≤ (i 1).val ∧ (i 1).val < win0_6.index t (1 : Fin 2) * 2048 + 2048
    rw [e1]; omega

/-- The same for the second result array. -/
theorem cover7 (c : Dev nD) : ∀ i : ((cfg0.win 7).arr.view.loc (c.tc : Thread nD τ)).2.ty.Idx,
    ∃ t : Fin cfg0.N, (cfg0.win 7).flush t = true ∧ i ∈ ((cfg0.win 7).blk t).view.set := by
  intro i
  have hi0 : (i 0).val < 8192 := (i 0).isLt
  have hi1 : (i 1).val < 2048 := (i 1).isLt
  obtain ⟨t, ht⟩ : ∃ t : Fin cfg0.N, t.val = 16 * ((i 0).val / 512) + 15 := ⟨⟨_, by rw [hN]; omega⟩, rfl⟩
  obtain ⟨e0, e1⟩ := idx7 t
  refine ⟨t, (flush0_7 t).mpr (by omega), ?_⟩
  show i ∈ ((View.whole main_v7_1).slice (win0_7.rect t)).set
  rw [View.set_slice_whole, Rect.mem_set_unit]
  intro a
  match a with
  | ⟨0, _⟩ =>
    show win0_7.index t (0 : Fin 2) * 512 ≤ (i 0).val ∧ (i 0).val < win0_7.index t (0 : Fin 2) * 512 + 512
    rw [e0]; omega
  | ⟨1, _⟩ =>
    show win0_7.index t (1 : Fin 2) * 2048 ≤ (i 1).val ∧ (i 1).val < win0_7.index t (1 : Fin 2) * 2048 + 2048
    rw [e1]; omega

end Cert.KernelIdeal.Blocks

end
-- ==== Proof.Pieces.lean ====
/-
  What each case's stores amount to: the accumulator after a step is the step's one whole-buffer store — the previous
  contents (the bias row spread down the tile, at a tile's first step) plus the step's two products — and at a tile's
  last step the two result blocks are the gates applied to that accumulator and to the cell-state block.
-/
import Idealize.ShloMosaic.Lib.ValueIdx
import Idealize.ShloMosaic.Lib.Pipeline.Value
import proofs.«101779_j19009525252387_2_alg».proof.Proof.KI.Frame

set_option maxRecDepth 16384

noncomputable section

namespace Cert.KernelIdeal.ValueH

open Cert.KernelIdeal Cert.KernelIdeal.Gen Cert.KernelIdeal.GenH Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle step: the accumulator ends at the previous contents plus the step's two products. -/
theorem soutB_pay (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay2 x0 x1 xs0 x2 x3 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero hz]
  simp only [View.readAt_eq_ld, harg2.read_unread, harg3.read_unread, harg4.read_unread, harg5.read_unread, harg6.read_unread, harg7.read_unread, harg10.read_unread, View.ld_unit_zero (S := S512x128) hz, View.ld_unit_zero (S := S128x8192) hz, View.ld_unit_zero (S := S1x8192) hz, View.ld_unit_zero (S := S512x2048) hz, View.ld_unit_zero (S := S512x8192) hz]

/-- The first step of a tile: the bias row is spread down the accumulator, read back, and the step's products added. -/
theorem soutA_pay (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : cond0_0 i) (hc1 : ¬cond0_1 i)
    (x0 : Vec F S512x128 .f32) (x1 : Vec F S512x128 .f32) (x2 : Vec F S128x8192 .bf16) (x3 : Vec F S128x8192 .bf16) (x4 : Vec F S1x8192 .f32) (x5 : Vec F S512x2048 .f32) :
    sout0_A_0 c i arg2 harg2 arg3 harg3 arg4 harg4 arg5 harg5 arg6 harg6 arg7 harg7 arg8 harg8 arg9 harg9 arg10 harg10 hc0 hc1 x0 x1 x2 x3 x4 x5 = k0_pay2 x0 x1 (k0_pay1 x4) x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x8192) hz, View.readCov_unit_zero (S := S512x8192) _ hz]
  simp only [View.readAt_eq_ld, harg2.read_unread, harg3.read_unread, harg4.read_unread, harg5.read_unread, harg6.read_unread, harg7.read_unread, harg10.read_unread, View.ld_unit_zero (S := S512x128) hz, View.ld_unit_zero (S := S128x8192) hz, View.ld_unit_zero (S := S1x8192) hz, View.ld_unit_zero (S := S512x2048) hz, View.ld_unit_zero (S := S512x8192) hz]

/-- The last step of a tile leaves the accumulator as a middle step does, -/
theorem soutC_pay (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay2 x0 x1 xs0 x2 x3 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S512x128) hz, View.ld_unit_zero (S := S128x8192) hz, View.ld_unit_zero (S := S1x8192) hz, View.ld_unit_zero (S := S512x2048) hz, View.ld_unit_zero (S := S512x8192) hz]

/-- the new hidden state's block: the output gate times tanh of the new cell state, -/
theorem outC6_pay (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay4 (k0_pay2 x0 x1 xs0 x2 x3) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz, View.readCov_unit_zero (S := S512x8192) _ hz]
  simp only [View.readAt_eq_ld, harg2.read_unread, harg3.read_unread, harg4.read_unread, harg5.read_unread, harg6.read_unread, harg7.read_unread, harg10.read_unread, View.ld_unit_zero (S := S512x128) hz, View.ld_unit_zero (S := S128x8192) hz, View.ld_unit_zero (S := S1x8192) hz, View.ld_unit_zero (S := S512x2048) hz, View.ld_unit_zero (S := S512x8192) hz]

/-- and the new cell state's block. -/
theorem outC7_pay (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S128x8192 .bf16) (harg4 : arg4.IsWhole) (arg5 : Memref sig .tc .vmem S128x8192 .bf16) (harg5 : arg5.IsWhole) (arg6 : Memref sig .tc .vmem S1x8192 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x8192 .f32) (harg10 : arg10.IsWhole) (hc0 : ¬cond0_0 i) (hc1 : cond0_1 i)
    (x0 : Vec F S512x128 .f32) (x1 : Vec F S512x128 .f32) (x2 : Vec F S128x8192 .bf16) (x3 : Vec F S128x8192 .bf16) (x4 : Vec F S1x8192 .f32) (x5 : Vec F S512x2048 .f32) (xs0 : Vec F S512x8192 .f32) :
    out0_C_7 c i arg2 harg2 arg3 harg3 arg4 harg4 arg5 harg5 arg6 harg6 arg7 harg7 arg8 harg8 arg9 harg9 arg10 harg10 hc0 hc1 x0 x1 x2 x3 x4 x5 xs0 = k0_pay3 (k0_pay2 x0 x1 xs0 x2 x3) x5 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz, View.readCov_unit_zero (S := S512x8192) _ hz]
  simp only [View.readAt_eq_ld, harg2.read_unread, harg3.read_unread, harg4.read_unread, harg5.read_unread, harg6.read_unread, harg7.read_unread, harg10.read_unread, View.ld_unit_zero (S := S512x128) hz, View.ld_unit_zero (S := S128x8192) hz, View.ld_unit_zero (S := S1x8192) hz, View.ld_unit_zero (S := S512x2048) hz, View.ld_unit_zero (S := S512x8192) hz]

end Cert.KernelIdeal.ValueH

end
-- ==== Proof.Payloads.lean ====
/-
  The four pure values the kernel's body stores, each read at an index over the extended reals: the bias row spread
  over the rows of the accumulator; the accumulator plus the two matrix products of one step; the new cell state and
  the new hidden state from the accumulated gates.
-/
import proofs.«101779_j19009525252387_2_alg».proof.Proof.Gen.KernelIdeal.Skeleton
import Idealize.ShloMosaic.PureOps.Ideal.Laws
import Idealize.ShloMosaic.Lib.Pipeline.Value
import Idealize.ShloMosaic.Lib.ValueLayout
import Idealize.ShloMosaic.Lib.ValueIdx

set_option maxRecDepth 16384

noncomputable section

namespace Cert.KernelIdeal.Pay

open Cert.KernelIdeal Cert.KernelIdeal.Gen
open Idealize.ShloMosaic Idealize.ShloMosaic.ValueIdx

/-- The left operand's row is the output's row … -/
theorem lhs_row (i : S512x8192.Idx) (q : dot_S512x128_S128x8192_S512x8192_1_0_0_1_n_n.contr.Idx) :
    (dot_S512x128_S128x8192_S512x8192_1_0_0_1_n_n.lhsIdx i q 0).val = (i 0).val := by
  unfold DotDims.lhsIdx
  rw [dif_neg (show ¬(0 : Fin S512x128.rank) ∈ dot_S512x128_S128x8192_S512x8192_1_0_0_1_n_n.lhsBatch by decide),
    dif_pos (show (0 : Fin S512x128.rank) ∈ dot_S512x128_S128x8192_S512x8192_1_0_0_1_n_n.lhsNonContracting by decide)]
  rfl

/-- … and the right operand's column is the output's column. -/
theorem rhs_col (i : S512x8192.Idx) (q : dot_S512x128_S128x8192_S512x8192_1_0_0_1_n_n.contr.Idx) :
    (dot_S512x128_S128x8192_S512x8192_1_0_0_1_n_n.rhsIdx i q 1).val = (i 1).val := by
  unfold DotDims.rhsIdx
  rw [dif_neg (show ¬(1 : Fin S128x8192.rank) ∈ dot_S512x128_S128x8192_S512x8192_1_0_0_1_n_n.rhsBatch by decide),
    dif_pos (show (1 : Fin S128x8192.rank) ∈ dot_S512x128_S128x8192_S512x8192_1_0_0_1_n_n.rhsNonContracting by decide)]
  rfl

/-- A product of a 512 × 128 matrix and a 128 × 8192 matrix added to the zero matrix, at row `p` and column `J`, is
    the sum over the shared axis of the products of the entries. -/
theorem matmul_zero_apply (lhs : FVec Ideal S512x128 .bf16) (rhs : FVec Ideal S128x8192 .bf16) (p : Fin 512) (J : Fin 8192) :
    matmul dot_S512x128_S128x8192_S512x8192_1_0_0_1_n_n none lhs rhs (constant (F := Ideal) S512x8192 .f32 0x00000000#32) (ix2 p J)
      = ∑ q : Fin 128, lhs (ix2 p q) * rhs (ix2 q J) := by
  refine (Ideal.matmul_constant_zero_apply dot_S512x128_S128x8192_S512x8192_1_0_0_1_n_n none lhs rhs (ix2 p J)).trans ?_
  rw [← Equiv.sum_comp (contrEquiv1 dot_S512x128_S128x8192_S512x8192_1_0_0_1_n_n 128 rfl rfl).symm]
  refine Finset.sum_congr rfl fun k _ => ?_
  have hk := contrEquiv1_symm_val dot_S512x128_S128x8192_S512x8192_1_0_0_1_n_n 128 rfl rfl k
  have el : dot_S512x128_S128x8192_S512x8192_1_0_0_1_n_n.lhsIdx (ix2 p J)
      ((contrEquiv1 dot_S512x128_S128x8192_S512x8192_1_0_0_1_n_n 128 rfl rfl).symm k) = ix2 p k :=
    funext fun a => Fin.ext (by
      match a with
      | ⟨0, _⟩ => exact lhs_row _ _
      | ⟨1, _⟩ => exact (dot_S512x128_S128x8192_S512x8192_1_0_0_1_n_n.lhsIdx_val_of_single rfl _ _).trans hk)
  have er : dot_S512x128_S128x8192_S512x8192_1_0_0_1_n_n.rhsIdx (ix2 p J)
      ((contrEquiv1 dot_S512x128_S128x8192_S512x8192_1_0_0_1_n_n 128 rfl rfl).symm k) = ix2 k J :=
    funext fun a => Fin.ext (by
      match a with
      | ⟨0, _⟩ => exact (dot_S512x128_S128x8192_S512x8192_1_0_0_1_n_n.rhsIdx_val_of_single rfl _ _).trans hk
      | ⟨1, _⟩ => exact rhs_col _ _)
  rw [el, er]

/-- The first step's store: the bias row, at every row `p`. -/
theorem pay1_apply (x4 : Vec Ideal S1x8192 .f32) (p : Fin 512) (J : Fin 8192) :
    k0_pay1 (F := Ideal) x4 (ix2 p J) = x4 (ix2 (0 : Fin 1) J) := by
  unfold k0_pay1
  simp only [shapeCast_self]
  exact broadcastTo_1b_ab_apply x4 broadcasts_S1x8192_S512x8192 p J

/-- Every step's store: the accumulator plus the input block times its weight block plus the hidden-state block
    times its weight block (rounding the operands is the identity over the extended reals). -/
theorem pay2_apply (x0 x1 : Vec Ideal S512x128 .f32) (acc : Vec Ideal S512x8192 .f32) (x2 x3 : Vec Ideal S128x8192 .bf16)
    (p : Fin 512) (J : Fin 8192) :
    k0_pay2 (F := Ideal) x0 x1 acc x2 x3 (ix2 p J)
      = acc (ix2 p J) + ((∑ q : Fin 128, x0 (ix2 p q) * x2 (ix2 q J)) + (∑ q : Fin 128, x1 (ix2 p q) * x3 (ix2 q J))) := by
  unfold k0_pay2
  simp only [shapeCast_self]
  refine (addf_apply _ _ _).trans ?_
  refine congrArg (acc (ix2 p J) + ·) ?_
  refine (addf_apply _ _ _).trans ?_
  rw [matmul_zero_apply, matmul_zero_apply]
  rfl

/-- The last step's new cell state: the forget gate times the old cell state plus the input gate times the candidate. -/
theorem pay3_apply (acc : Vec Ideal S512x8192 .f32) (x5 : Vec Ideal S512x2048 .f32) (p : Fin 512) (j : Fin 2048) :
    k0_pay3 (F := Ideal) acc x5 (ix2 p j)
      = Ideal.logistic (acc (ix2 p (⟨2048 + j.val, by omega⟩ : Fin 8192))) * x5 (ix2 p j)
        + Ideal.logistic (acc (ix2 p (⟨j.val, by omega⟩ : Fin 8192))) * Ideal.tanh (acc (ix2 p (⟨6144 + j.val, by omega⟩ : Fin 8192))) := by
  unfold k0_pay3
  rw [← slice2_axis1_apply 2048 acc slices_S512x8192_o0_2048_S512x2048 p j (⟨2048 + j.val, by omega⟩ : Fin 8192) rfl,
    ← slice2_axis1_apply 0 acc slices_S512x8192_o0_0_S512x2048 p j (⟨j.val, by omega⟩ : Fin 8192) (Nat.zero_add _).symm,
    ← slice2_axis1_apply 6144 acc slices_S512x8192_o0_6144_S512x2048 p j (⟨6144 + j.val, by omega⟩ : Fin 8192) rfl]
  rfl

/-- The last step's new hidden state: the output gate times the hyperbolic tangent of the new cell state. -/
theorem pay4_apply (acc : Vec Ideal S512x8192 .f32) (x5 : Vec Ideal S512x2048 .f32) (p : Fin 512) (j : Fin 2048) :
    k0_pay4 (F := Ideal) acc x5 (ix2 p j)
      = Ideal.logistic (acc (ix2 p (⟨4096 + j.val, by omega⟩ : Fin 8192))) * Ideal.tanh (k0_pay3 (F := Ideal) acc x5 (ix2 p j)) := by
  unfold k0_pay4
  rw [← slice2_axis1_apply 4096 acc slices_S512x8192_o0_4096_S512x2048 p j (⟨4096 + j.val, by omega⟩ : Fin 8192) rfl]
  rfl

end Cert.KernelIdeal.Pay

end
-- ==== Proof.AccSpec.lean ====
/-
  The kernel's way to the gates' pre-activations: the contracted axis of `[x, h] · Wᵀ` is walked in 16 steps of 128
  columns, the input half and the hidden-state half side by side, starting from the bias:
    acc 0 = b J + T 0,   acc (k+1) = acc k + T (k+1),
    T k = ∑ q < 128, x r (128 k + q) * W J (128 k + q)  +  ∑ q < 128, h r (128 k + q) * W J (2048 + 128 k + q).
  `acc 15` is the specification's `pre r J` (a regrouping of one finite sum; proved beside the algebra).
-/
import proofs.«101779_j19009525252387_2_alg».proof.Proof.Spec

noncomputable section

namespace Cert.LstmSpec

open Idealize.ShloMosaic Idealize.ShloMosaic.ValueIdx

section
variable (x h : FVec Ideal SBH .f32) (Wi Wf Wo Wc : FVec Ideal SW .f32) (bi bf bo bc : FVec Ideal Sb .f32)

/-- Step `k`'s contribution to entry `(r, J)`: 128 columns of the input against the stacked weights' first half, and
    the same 128 columns of the hidden state against their second half. -/
def stepT (r J : Fin 8192) (k : Fin 16) : EReal :=
  (∑ q : Fin 128, x (ix2 r (⟨128 * k.val + q.val, by omega⟩ : Fin 2048)) * wAll Wi Wf Wo Wc J (⟨128 * k.val + q.val, by omega⟩ : Fin 4096))
    + (∑ q : Fin 128, h (ix2 r (⟨128 * k.val + q.val, by omega⟩ : Fin 2048)) * wAll Wi Wf Wo Wc J (⟨2048 + (128 * k.val + q.val), by omega⟩ : Fin 4096))

/-- The accumulator's entry `(r, J)` after step `k` of its batch tile. -/
def accS (r J : Fin 8192) : (k : ℕ) → k < 16 → EReal
  | 0, hk => bAll bi bf bo bc J + stepT x h Wi Wf Wo Wc r J ⟨0, hk⟩
  | k + 1, hk => accS r J k (by omega) + stepT x h Wi Wf Wo Wc r J ⟨k + 1, hk⟩

end

end Cert.LstmSpec

end
-- ==== Proof.AccAlgebra.lean ====
/-
  The accumulator's last value is the specification's pre-activation: a regrouping of one finite sum.

  The sum over the 4096 joined columns splits into its first 2048 (the input against the stacked weights' first half)
  and its last 2048 (the hidden state against their second half); each half is the sum over 16 consecutive runs of 128
  columns; the two double sums join run by run into the steps' contributions; and the accumulator after its last step
  is the bias plus the sum of the 16 contributions. Only the commutative-monoid laws of addition are used.
-/
import proofs.«101779_j19009525252387_2_alg».proof.Proof.AccSpec

noncomputable section

namespace Cert.LstmSpec

open Idealize.ShloMosaic Idealize.ShloMosaic.ValueIdx

/-- A sum over `n * b` positions is the sum over `n` consecutive runs of `b`: position `b * s + q` is position `q` of
    run `s`. -/
theorem sum_runs {M : Type*} [AddCommMonoid M] {N : ℕ} (n b : ℕ) (hN : n * b = N) (f : Fin N → M) :
    ∑ a : Fin N, f a
      = ∑ s : Fin n, ∑ q : Fin b, f ⟨b * s.val + q.val, by
          have h1 := s.isLt; have h2 := q.isLt
          calc b * s.val + q.val < b * s.val + b := by omega
            _ = b * (s.val + 1) := by ring
            _ ≤ b * n := Nat.mul_le_mul_left b h1
            _ = N := by rw [Nat.mul_comm, hN]⟩ := by
  subst hN
  have e := Equiv.sum_comp (finProdFinEquiv : Fin n × Fin b ≃ Fin (n * b)) f
  rw [Fintype.sum_prod_type] at e
  refine e.symm.trans ?_
  refine Finset.sum_congr rfl fun s _ => Finset.sum_congr rfl fun q _ => congrArg f (Fin.ext ?_)
  show q.val + b * s.val = b * s.val + q.val
  omega

/-- A sum over `m + n` positions is the sum over the first `m` plus the sum over the last `n`. -/
theorem sum_first_last {M : Type*} [AddCommMonoid M] {N : ℕ} (m n : ℕ) (hN : m + n = N) (g : Fin N → M) :
    ∑ kk : Fin N, g kk = (∑ a : Fin m, g ⟨a.val, by omega⟩) + ∑ a : Fin n, g ⟨m + a.val, by omega⟩ := by
  subst hN
  exact Fin.sum_univ_add g

/-- A sum over 2048 positions is the sum over 16 consecutive runs of 128. -/
theorem sum_runs16 {M : Type*} [AddCommMonoid M] (f : Fin 2048 → M) :
    ∑ a : Fin 2048, f a = ∑ k : Fin 16, ∑ q : Fin 128, f ⟨128 * k.val + q.val, by omega⟩ :=
  sum_runs 16 128 (by norm_num) f

/-- A sum over 4096 positions is the sum over the first 2048 plus the sum over the last 2048. -/
theorem sum_halves2048 {M : Type*} [AddCommMonoid M] (g : Fin 4096 → M) :
    ∑ kk : Fin 4096, g kk = (∑ a : Fin 2048, g ⟨a.val, by omega⟩) + ∑ a : Fin 2048, g ⟨2048 + a.val, by omega⟩ :=
  sum_first_last 2048 2048 (by norm_num) g

section
variable (x h : FVec Ideal SBH .f32) (Wi Wf Wo Wc : FVec Ideal SW .f32) (bi bf bo bc : FVec Ideal Sb .f32)

/-- The joined row's first half is the input's row. -/
theorem xh_lo (r : Fin 8192) (a : Fin 2048) : xh x h r (⟨a.val, by omega⟩ : Fin 4096) = x (ix2 r a) := by
  unfold xh
  have hp : (⟨a.val, by omega⟩ : Fin 4096).val < 2048 := a.isLt
  rw [dif_pos hp]

/-- The joined row's second half is the hidden state's row. -/
theorem xh_hi (r : Fin 8192) (a : Fin 2048) : xh x h r (⟨2048 + a.val, by omega⟩ : Fin 4096) = h (ix2 r a) := by
  unfold xh
  have hn : ¬ ((⟨2048 + a.val, by omega⟩ : Fin 4096).val < 2048) := by
    show ¬ (2048 + a.val < 2048)
    omega
  rw [dif_neg hn]
  exact congrArg (fun t : Fin 2048 => h (ix2 r t)) (Fin.ext (by show 2048 + a.val - 2048 = a.val; omega))

/-- The accumulator after step `k` is the bias plus the contributions of steps `0` to `k`. -/
theorem accS_eq (r J : Fin 8192) : ∀ (k : ℕ) (hk : k < 16),
    accS x h Wi Wf Wo Wc bi bf bo bc r J k hk
      = bAll bi bf bo bc J + ∑ k' : Fin (k + 1), stepT x h Wi Wf Wo Wc r J ⟨k'.val, by omega⟩
  | 0, hk => by
    rw [accS, Fin.sum_univ_castSucc (n := 0), Fin.sum_univ_zero, zero_add]
    rfl
  | k + 1, hk => by
    rw [accS, accS_eq r J k (by omega), Fin.sum_univ_castSucc (n := k + 1), add_assoc]
    rfl

/-- The contraction over the joined columns, split into the input's half and the hidden state's half. -/
theorem contraction_halves (r J : Fin 8192) :
    ∑ kk : Fin 4096, xh x h r kk * wAll Wi Wf Wo Wc J kk
      = (∑ a : Fin 2048, x (ix2 r a) * wAll Wi Wf Wo Wc J (⟨a.val, by omega⟩ : Fin 4096))
        + ∑ a : Fin 2048, h (ix2 r a) * wAll Wi Wf Wo Wc J (⟨2048 + a.val, by omega⟩ : Fin 4096) := by
  rw [sum_halves2048]
  refine congrArg₂ (· + ·) (Finset.sum_congr rfl fun a _ => ?_) (Finset.sum_congr rfl fun a _ => ?_)
  · rw [xh_lo]
  · rw [xh_hi]

/-- The accumulator after its sixteenth step is the specification's pre-activation. -/
theorem acc_total (r J : Fin 8192) :
    accS x h Wi Wf Wo Wc bi bf bo bc r J 15 (by norm_num) = pre x h Wi Wf Wo Wc bi bf bo bc r J := by
  have h15 : accS x h Wi Wf Wo Wc bi bf bo bc r J 15 (by norm_num)
      = bAll bi bf bo bc J + ∑ k : Fin 16, stepT x h Wi Wf Wo Wc r J k :=
    accS_eq x h Wi Wf Wo Wc bi bf bo bc r J 15 (by norm_num)
  have hx : ∑ a : Fin 2048, x (ix2 r a) * wAll Wi Wf Wo Wc J (⟨a.val, by omega⟩ : Fin 4096)
      = ∑ k : Fin 16, ∑ q : Fin 128, x (ix2 r (⟨128 * k.val + q.val, by omega⟩ : Fin 2048))
          * wAll Wi Wf Wo Wc J (⟨128 * k.val + q.val, by omega⟩ : Fin 4096) :=
    sum_runs16 fun a : Fin 2048 => x (ix2 r a) * wAll Wi Wf Wo Wc J (⟨a.val, by omega⟩ : Fin 4096)
  have hh : ∑ a : Fin 2048, h (ix2 r a) * wAll Wi Wf Wo Wc J (⟨2048 + a.val, by omega⟩ : Fin 4096)
      = ∑ k : Fin 16, ∑ q : Fin 128, h (ix2 r (⟨128 * k.val + q.val, by omega⟩ : Fin 2048))
          * wAll Wi Wf Wo Wc J (⟨2048 + (128 * k.val + q.val), by omega⟩ : Fin 4096) :=
    sum_runs16 fun a : Fin 2048 => h (ix2 r a) * wAll Wi Wf Wo Wc J (⟨2048 + a.val, by omega⟩ : Fin 4096)
  rw [h15, pre, contraction_halves, hx, hh, ← Finset.sum_add_distrib, add_comm]
  rfl

end

end Cert.LstmSpec

end
-- ==== Proof.Accumulate.lean ====
/-
  The induction over the grid: what the accumulator and the two result windows hold after each point, in the
  specification's terms.

  Point `t` is step `t % 16` of batch tile `t / 16`. After it the accumulator's entry `(p, J)` is the specification's
  accumulator `accS` of row `512 (t / 16) + p` after step `t % 16`: at a tile's first step the bias plus the step's
  contribution, afterwards what the point before left plus the step's contribution, the blocks the step reads being
  the step's 128 columns of the input and of the hidden state and the matching 128 rows of the two weight halves. At a
  tile's last step the accumulator is therefore the gates' pre-activation, and the two result blocks are the new hidden
  state and the new cell state of the tile's rows.
-/
import proofs.«101779_j19009525252387_2_alg».proof.Proof.Pieces
import proofs.«101779_j19009525252387_2_alg».proof.Proof.Payloads
import proofs.«101779_j19009525252387_2_alg».proof.Proof.BlockReads
import proofs.«101779_j19009525252387_2_alg».proof.Proof.AccAlgebra

set_option maxRecDepth 16384

noncomputable section

namespace Cert.KernelIdeal.ValueH

open Cert.KernelIdeal Cert.KernelIdeal.Gen Cert.KernelIdeal.GenH
open Idealize.ShloMosaic Idealize.ShloMosaic.TcCoe Idealize.ShloMosaic.ValueIdx
open Cert.LstmSpec

/-! ## The specification's accumulator, one step at a time -/

section
variable (x h : FVec Ideal SBH .f32) (Wi Wf Wo Wc : FVec Ideal SW .f32) (bi bf bo bc : FVec Ideal Sb .f32)

/-- At a tile's first step the accumulator is the bias plus the step's contribution. -/
theorem accS_first (r J : Fin 8192) (k : ℕ) (hk : k < 16) (h0 : k = 0) :
    accS x h Wi Wf Wo Wc bi bf bo bc r J k hk = bAll bi bf bo bc J + stepT x h Wi Wf Wo Wc r J ⟨k, hk⟩ := by
  subst h0
  rfl

/-- At a later step it is the accumulator after the step before plus the step's contribution. -/
theorem accS_later (r r' : Fin 8192) (hr : r = r') (J : Fin 8192) (k k' : ℕ) (hk : k < 16) (hk' : k' < 16)
    (hkk : k' = k + 1) :
    accS x h Wi Wf Wo Wc bi bf bo bc r' J k' hk'
      = accS x h Wi Wf Wo Wc bi bf bo bc r J k hk + stepT x h Wi Wf Wo Wc r' J ⟨k', hk'⟩ := by
  subst hr
  subst hkk
  rfl

/-- The accumulator's value depends on the step only through its number. -/
theorem accS_step_congr (r J : Fin 8192) (k k' : ℕ) (hk : k < 16) (hk' : k' < 16) (hkk : k = k') :
    accS x h Wi Wf Wo Wc bi bf bo bc r J k hk = accS x h Wi Wf Wo Wc bi bf bo bc r J k' hk' := by
  subst hkk
  rfl

end

/-- The components of a triple known by an equation. -/
theorem triple_proj {α β γ : Type} {x : α × β × γ} {a : α} {b : β} {c : γ} (e : x = (a, b, c)) :
    x.1 = a ∧ x.2.1 = b ∧ x.2.2 = c := by
  subst e
  exact ⟨rfl, rfl, rfl⟩

variable (m : (ℓ : Loc nD τ sig) → Buf (Elt Ideal) ℓ)

/-! ## Each case's stores, as pure values of the blocks the point reads -/

theorem soutA_eq (c : Dev nD) (t : Fin cfg0.N) (h0 : t.val % 16 = 0) (h1 : ¬t.val % 16 = 15) :
    soutA (F := Ideal) m c t h0 h1
      = k0_pay2 (iblk m c 0 t) (iblk m c 1 t) (k0_pay1 (iblk m c 4 t)) (iblk m c 2 t) (iblk m c 3 t) :=
  soutA_pay (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem soutB_eq (c : Dev nD) (t : Fin cfg0.N) (h0 : ¬t.val % 16 = 0) (h1 : ¬t.val % 16 = 15) (prev : Vec Ideal S512x8192 .f32) :
    soutB (F := Ideal) m c t h0 h1 prev
      = k0_pay2 (iblk m c 0 t) (iblk m c 1 t) prev (iblk m c 2 t) (iblk m c 3 t) :=
  soutB_pay (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev

theorem soutC_eq (c : Dev nD) (t : Fin cfg0.N) (h0 : ¬t.val % 16 = 0) (h1 : t.val % 16 = 15) (prev : Vec Ideal S512x8192 .f32) :
    soutC (F := Ideal) m c t h0 h1 prev
      = k0_pay2 (iblk m c 0 t) (iblk m c 1 t) prev (iblk m c 2 t) (iblk m c 3 t) :=
  soutC_pay (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) prev

theorem outC6_eq (c : Dev nD) (t : Fin cfg0.N) (h0 : ¬t.val % 16 = 0) (h1 : t.val % 16 = 15) (prev : Vec Ideal S512x8192 .f32) :
    outC6 (F := Ideal) m c t h0 h1 prev
      = k0_pay4 (k0_pay2 (iblk m c 0 t) (iblk m c 1 t) prev (iblk m c 2 t) (iblk m c 3 t)) (iblk m c 5 t) :=
  outC6_pay (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) prev

theorem outC7_eq (c : Dev nD) (t : Fin cfg0.N) (h0 : ¬t.val % 16 = 0) (h1 : t.val % 16 = 15) (prev : Vec Ideal S512x8192 .f32) :
    outC7 (F := Ideal) m c t h0 h1 prev
      = k0_pay3 (k0_pay2 (iblk m c 0 t) (iblk m c 1 t) prev (iblk m c 2 t) (iblk m c 3 t)) (iblk m c 5 t) :=
  outC7_pay (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) prev

/-! ## One step's contribution, from the blocks the step reads -/

/-- The accumulator a step stores, at row `p` of the tile and stacked-gate column `J`: what it found there plus step
    `t % 16`'s contribution to row `512 (t / 16) + p`. -/
theorem pay2_step (c : Dev nD) (t : Fin cfg0.N) (acc : Vec Ideal S512x8192 .f32) (p : Fin 512) (J : Fin 8192) :
    k0_pay2 (F := Ideal) (iblk m c 0 t) (iblk m c 1 t) acc (iblk m c 2 t) (iblk m c 3 t) (ix2 p J)
      = acc (ix2 p J) + stepT (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (⟨512 * (t.val / 16) + p.val, by have := t.isLt; have := Blocks.hN; omega⟩ : Fin 8192) J (⟨t.val % 16, Nat.mod_lt _ (by norm_num)⟩ : Fin 16) := by
  refine (Pay.pay2_apply (iblk m c 0 t) (iblk m c 1 t) acc (iblk m c 2 t) (iblk m c 3 t) p J).trans ?_
  refine congrArg (acc (ix2 p J) + ·) ?_
  unfold Cert.LstmSpec.stepT
  refine congrArg₂ (· + ·) (Finset.sum_congr rfl fun q _ => ?_) (Finset.sum_congr rfl fun q _ => ?_)
  · rw [Blocks.iblk0_apply m c t p q, Blocks.iblk2_apply m c t q J]
  · rw [Blocks.iblk1_apply m c t p q, Blocks.iblk3_apply m c t q J]

/-- A tile's first step leaves the bias plus the step's contribution. -/
theorem soutA_at (c : Dev nD) (t : Fin cfg0.N) (h0 : t.val % 16 = 0) (h1 : ¬t.val % 16 = 15) (p : Fin 512) (J : Fin 8192) :
    soutA (F := Ideal) m c t h0 h1 (ix2 p J)
      = bAll (m ((c : Thread nD τ).loc main_arg4)) (m ((c : Thread nD τ).loc main_arg6)) (m ((c : Thread nD τ).loc main_arg10)) (m ((c : Thread nD τ).loc main_arg8)) J + stepT (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (⟨512 * (t.val / 16) + p.val, by have := t.isLt; have := Blocks.hN; omega⟩ : Fin 8192) J (⟨t.val % 16, Nat.mod_lt _ (by norm_num)⟩ : Fin 16) := by
  rw [soutA_eq m c t h0 h1]
  refine (pay2_step m c t (k0_pay1 (iblk m c 4 t)) p J).trans ?_
  rw [Pay.pay1_apply (iblk m c 4 t) p J, Blocks.iblk4_apply m c t J]

/-- A middle step leaves what it found plus the step's contribution. -/
theorem soutB_at (c : Dev nD) (t : Fin cfg0.N) (h0 : ¬t.val % 16 = 0) (h1 : ¬t.val % 16 = 15) (prev : Vec Ideal S512x8192 .f32)
    (p : Fin 512) (J : Fin 8192) :
    soutB (F := Ideal) m c t h0 h1 prev (ix2 p J)
      = prev (ix2 p J) + stepT (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (⟨512 * (t.val / 16) + p.val, by have := t.isLt; have := Blocks.hN; omega⟩ : Fin 8192) J (⟨t.val % 16, Nat.mod_lt _ (by norm_num)⟩ : Fin 16) := by
  rw [soutB_eq m c t h0 h1 prev]
  exact pay2_step m c t prev p J

/-- A tile's last step leaves the same in the accumulator. -/
theorem soutC_at (c : Dev nD) (t : Fin cfg0.N) (h0 : ¬t.val % 16 = 0) (h1 : t.val % 16 = 15) (prev : Vec Ideal S512x8192 .f32)
    (p : Fin 512) (J : Fin 8192) :
    soutC (F := Ideal) m c t h0 h1 prev (ix2 p J)
      = prev (ix2 p J) + stepT (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (⟨512 * (t.val / 16) + p.val, by have := t.isLt; have := Blocks.hN; omega⟩ : Fin 8192) J (⟨t.val % 16, Nat.mod_lt _ (by norm_num)⟩ : Fin 16) := by
  rw [soutC_eq m c t h0 h1 prev]
  exact pay2_step m c t prev p J

/-! ## The accumulator after every point -/

/-- After position `n` the accumulator's entry `(p, J)` is the specification's accumulator of row `512 (n / 16) + p`
    after step `n % 16`. -/
theorem acc_at_pos (c : Dev nD) : ∀ (n : ℕ) (hn : n < cfg0.N) (p : Fin 512) (J : Fin 8192),
    (outsAt0 (F := Ideal) m c n hn).2.2 (ix2 p J)
      = accS (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8))
          (⟨512 * (n / 16) + p.val, by have := Blocks.hN; omega⟩ : Fin 8192) J (n % 16) (Nat.mod_lt _ (by norm_num)) := by
  intro n
  induction n with
  | zero =>
    intro hn p J
    have hA : (outsAt0 (F := Ideal) m c 0 hn).2.2 = soutA m c ⟨0, hn⟩ (Nat.zero_mod _) (by show ¬(0 % 16 = 15); decide) :=
      (triple_proj (outsAt0_A m c ⟨0, hn⟩ (Nat.zero_mod _) (by show ¬(0 % 16 = 15); decide))).2.2
    rw [hA]
    refine (soutA_at m c ⟨0, hn⟩ (Nat.zero_mod _) (by show ¬(0 % 16 = 15); decide) p J).trans ?_
    exact (accS_first _ _ _ _ _ _ _ _ _ _ _ _ (0 % 16) _ (Nat.zero_mod _)).symm
  | succ n ih =>
    intro hn p J
    have hN := Blocks.hN
    by_cases h0 : (n + 1) % 16 = 0
    · have h1 : ¬(n + 1) % 16 = 15 := by omega
      have hA : (outsAt0 (F := Ideal) m c (n + 1) hn).2.2 = soutA m c ⟨n + 1, hn⟩ h0 h1 :=
        (triple_proj (outsAt0_A m c ⟨n + 1, hn⟩ h0 h1)).2.2
      rw [hA]
      refine (soutA_at m c ⟨n + 1, hn⟩ h0 h1 p J).trans ?_
      exact (accS_first _ _ _ _ _ _ _ _ _ _ _ _ ((n + 1) % 16) _ h0).symm
    · have ihn := ih (Nat.lt_of_succ_lt hn) p J
      have hrow : ((⟨512 * (n / 16) + p.val, by have := Blocks.hN; omega⟩ : Fin 8192)) = (⟨512 * ((n + 1) / 16) + p.val, by have := Blocks.hN; omega⟩ : Fin 8192) :=
        Fin.ext (by show 512 * (n / 16) + p.val = 512 * ((n + 1) / 16) + p.val; omega)
      by_cases h1 : (n + 1) % 16 = 15
      · have hC : (outsAt0 (F := Ideal) m c (n + 1) hn).2.2 = soutC m c ⟨n + 1, hn⟩ h0 h1 (outsAt0 (F := Ideal) m c n (Nat.lt_of_succ_lt hn)).2.2 :=
          (triple_proj (outsAt0_C m c ⟨n + 1, hn⟩ h0 h1)).2.2
        rw [hC]
        refine (soutC_at m c ⟨n + 1, hn⟩ h0 h1 (outsAt0 (F := Ideal) m c n (Nat.lt_of_succ_lt hn)).2.2 p J).trans ?_
        rw [ihn]
        exact (accS_later _ _ _ _ _ _ _ _ _ _ _ _ hrow J (n % 16) ((n + 1) % 16) _ _ (by omega)).symm
      · have hB : (outsAt0 (F := Ideal) m c (n + 1) hn).2.2 = soutB m c ⟨n + 1, hn⟩ h0 h1 (outsAt0 (F := Ideal) m c n (Nat.lt_of_succ_lt hn)).2.2 :=
          (triple_proj (outsAt0_B m c ⟨n + 1, hn⟩ h0 h1)).2.2
        rw [hB]
        refine (soutB_at m c ⟨n + 1, hn⟩ h0 h1 (outsAt0 (F := Ideal) m c n (Nat.lt_of_succ_lt hn)).2.2 p J).trans ?_
        rw [ihn]
        exact (accS_later _ _ _ _ _ _ _ _ _ _ _ _ hrow J (n % 16) ((n + 1) % 16) _ _ (by omega)).symm

/-- After point `t` the accumulator's entry `(p, J)` is the specification's accumulator of row `512 (t / 16) + p`
    after step `t % 16`. -/
theorem acc_at (c : Dev nD) (t : Fin cfg0.N) (p : Fin 512) (J : Fin 8192) :
    (outsAt0 (F := Ideal) m c t.val t.isLt).2.2 (ix2 p J)
      = accS (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8))
          (⟨512 * (t.val / 16) + p.val, by have := t.isLt; have := Blocks.hN; omega⟩ : Fin 8192) J (t.val % 16) (Nat.mod_lt _ (by norm_num)) :=
  acc_at_pos m c t.val t.isLt p J

/-- After a tile's last step the accumulator is the gates' pre-activation of the tile's rows. -/
theorem acc_last (c : Dev nD) (t : Fin cfg0.N) (h1 : t.val % 16 = 15) (p : Fin 512) (J : Fin 8192) :
    (outsAt0 (F := Ideal) m c t.val t.isLt).2.2 (ix2 p J)
      = pre (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8)) (⟨512 * (t.val / 16) + p.val, by have := t.isLt; have := Blocks.hN; omega⟩ : Fin 8192) J :=
  (acc_at m c t p J).trans
    ((accS_step_congr _ _ _ _ _ _ _ _ _ _ _ J (t.val % 16) 15 _ (by norm_num) h1).trans
      (acc_total _ _ _ _ _ _ _ _ _ _ _ J))

/-! ## The two result blocks at a tile's last step -/

/-- At a tile's last step the second result block is the new cell state's formula on the accumulator the step leaves
    and the old cell state's block. -/
theorem out7_eq (c : Dev nD) (t : Fin cfg0.N) (h1 : t.val % 16 = 15) :
    (outsAt0 (F := Ideal) m c t.val t.isLt).2.1
      = k0_pay3 ((outsAt0 (F := Ideal) m c t.val t.isLt).2.2) (iblk m c 5 t) := by
  have h0 : ¬t.val % 16 = 0 := by omega
  have hC := outsAt0_C (F := Ideal) m c t h0 h1
  have h21 : (outsAt0 (F := Ideal) m c t.val t.isLt).2.1 = outC7 m c t h0 h1 (outsAt0 (F := Ideal) m c (t.val - 1) (Nat.lt_of_le_of_lt (Nat.sub_le _ _) t.isLt)).2.2 :=
    (triple_proj hC).2.1
  have h22 : (outsAt0 (F := Ideal) m c t.val t.isLt).2.2 = soutC m c t h0 h1 (outsAt0 (F := Ideal) m c (t.val - 1) (Nat.lt_of_le_of_lt (Nat.sub_le _ _) t.isLt)).2.2 :=
    (triple_proj hC).2.2
  rw [h21, h22, outC7_eq m c t h0 h1, soutC_eq m c t h0 h1]

/-- The first result block likewise, with the new hidden state's formula. -/
theorem out6_eq (c : Dev nD) (t : Fin cfg0.N) (h1 : t.val % 16 = 15) :
    (outsAt0 (F := Ideal) m c t.val t.isLt).1
      = k0_pay4 ((outsAt0 (F := Ideal) m c t.val t.isLt).2.2) (iblk m c 5 t) := by
  have h0 : ¬t.val % 16 = 0 := by omega
  have hC := outsAt0_C (F := Ideal) m c t h0 h1
  have h1' : (outsAt0 (F := Ideal) m c t.val t.isLt).1 = outC6 m c t h0 h1 (outsAt0 (F := Ideal) m c (t.val - 1) (Nat.lt_of_le_of_lt (Nat.sub_le _ _) t.isLt)).2.2 :=
    (triple_proj hC).1
  have h22 : (outsAt0 (F := Ideal) m c t.val t.isLt).2.2 = soutC m c t h0 h1 (outsAt0 (F := Ideal) m c (t.val - 1) (Nat.lt_of_le_of_lt (Nat.sub_le _ _) t.isLt)).2.2 :=
    (triple_proj hC).2.2
  rw [h1', h22, outC6_eq m c t h0 h1, soutC_eq m c t h0 h1]

/-- At a tile's last step the second result block is the new cell state of the tile's rows. -/
theorem out7_at (c : Dev nD) (t : Fin cfg0.N) (h1 : t.val % 16 = 15) (p : Fin 512) (j : Fin 2048) :
    (outsAt0 (F := Ideal) m c t.val t.isLt).2.1 (ix2 p j)
      = cNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8)) (⟨512 * (t.val / 16) + p.val, by have := t.isLt; have := Blocks.hN; omega⟩ : Fin 8192) j := by
  rw [out7_eq m c t h1]
  refine (Pay.pay3_apply _ (iblk m c 5 t) p j).trans ?_
  rw [acc_last m c t h1 p, acc_last m c t h1 p, acc_last m c t h1 p, Blocks.iblk5_apply m c t p j]
  rfl

/-- At a tile's last step the first result block is the new hidden state of the tile's rows. -/
theorem out6_at (c : Dev nD) (t : Fin cfg0.N) (h1 : t.val % 16 = 15) (p : Fin 512) (j : Fin 2048) :
    (outsAt0 (F := Ideal) m c t.val t.isLt).1 (ix2 p j)
      = hNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8)) (⟨512 * (t.val / 16) + p.val, by have := t.isLt; have := Blocks.hN; omega⟩ : Fin 8192) j := by
  rw [out6_eq m c t h1]
  refine (Pay.pay4_apply _ (iblk m c 5 t) p j).trans ?_
  rw [← out7_eq m c t h1, out7_at m c t h1 p j, acc_last m c t h1 p]
  rfl

end Cert.KernelIdeal.ValueH

end
-- ==== Proof.KernelRun.lean ====
/-
  The kernel's program, run: at the last step of each batch tile the two result windows hold the new hidden state and
  the new cell state of that tile's rows, the write-backs at those steps cover the two result arrays, and so the run
  ends with the first result array holding the specification's new hidden state, the second its new cell state, and
  every argument array as launched.
-/
import proofs.«101779_j19009525252387_2_alg».proof.Proof.KI.Frame
import proofs.«101779_j19009525252387_2_alg».proof.Proof.BlockReads
import proofs.«101779_j19009525252387_2_alg».proof.Proof.Spec
import proofs.«101779_j19009525252387_2_alg».proof.Proof.Accumulate
import Idealize.ShloMosaic.Lib.Pipeline.Value

set_option maxRecDepth 16384

noncomputable section

namespace Cert.KernelIdeal.ValueH

open Cert.KernelIdeal Cert.KernelIdeal.Gen Cert.KernelIdeal.GenH Cert.KernelIdeal.Blocks Cert.KernelIdeal.ValueH
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The specification's new hidden state of the launch contents, as an array. -/
abbrev gh (c : Dev nD) : FVec Ideal S8192x2048 .f32 :=
  Cert.LstmSpec.Gh (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8))

/-- The specification's new cell state of the launch contents, as an array. -/
abbrev gc (c : Dev nD) : FVec Ideal S8192x2048 .f32 :=
  Cert.LstmSpec.Gc (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg9)) (m ((c : Thread nD τ).loc main_arg7)) (m ((c : Thread nD τ).loc main_arg4)) (m ((c : Thread nD τ).loc main_arg6)) (m ((c : Thread nD τ).loc main_arg10)) (m ((c : Thread nD τ).loc main_arg8))

/-- What a point at the last step of a batch tile writes back to the first result array is that tile's block of the new
    hidden state. -/
theorem flushed6_eq (c : Dev nD) (t : Fin cfg0.N) (hf : (cfg0.win 6).flush t = true) :
    (dats m 0 c).flushed 6 t = ((cfg0.win 6).blk t).view.read (Elt Ideal) (gh m c) := by
  have h1 : t.val % 16 = 15 := (flush0_6 t).mp hf
  show (cfg0.win 6).cut (grid0.coords t) ((dats m 0 c).after 6 t) = _
  rw [after0_6]
  funext y
  obtain ⟨p, j, rfl⟩ : ∃ (p : Fin 512) (j : Fin 2048), y = ix2 p j := ⟨y 0, y 1, eq_ix2 y⟩
  refine Eq.trans ?_ (blk6_read (gh m c) t p j).symm
  refine Eq.trans ?_ (out6_at m c t h1 p j)
  exact congrArg (outsAt0 (F := Ideal) m c t.val t.isLt).1
    (funext fun a => Fin.ext (by match a with | ⟨0, _⟩ => rfl | ⟨1, _⟩ => rfl))

/-- What such a point writes back to the second result array is that tile's block of the new cell state. -/
theorem flushed7_eq (c : Dev nD) (t : Fin cfg0.N) (hf : (cfg0.win 7).flush t = true) :
    (dats m 0 c).flushed 7 t = ((cfg0.win 7).blk t).view.read (Elt Ideal) (gc m c) := by
  have h1 : t.val % 16 = 15 := (flush0_7 t).mp hf
  show (cfg0.win 7).cut (grid0.coords t) ((dats m 0 c).after 7 t) = _
  rw [after0_7]
  funext y
  obtain ⟨p, j, rfl⟩ : ∃ (p : Fin 512) (j : Fin 2048), y = ix2 p j := ⟨y 0, y 1, eq_ix2 y⟩
  refine Eq.trans ?_ (blk7_read (gc m c) t p j).symm
  refine Eq.trans ?_ (out7_at m c t h1 p j)
  exact congrArg (outsAt0 (F := Ideal) m c t.val t.isLt).2.1
    (funext fun a => Fin.ext (by match a with | ⟨0, _⟩ => rfl | ⟨1, _⟩ => rfl))

/-- The first result array ends holding the new hidden state: the write-backs cover it. -/
theorem final6 (c : Dev nD) : (dats m 0 c).arrAt 6 cfg0.N = gh m c :=
  (dats m 0 c).arrAt_eq_of_cover 6 (gh m c) (flushed6_eq m c) (cover6 c)

/-- The second result array ends holding the new cell state. -/
theorem final7 (c : Dev nD) : (dats m 0 c).arrAt 7 cfg0.N = gc m c :=
  (dats m 0 c).arrAt_eq_of_cover 7 (gc m c) (flushed7_eq m c) (cover7 c)

/-- From any launch contents with zero counters every weakly fair execution of the program terminates, with the two
    result arrays at the specification's new hidden state and new cell state of the launch contents and every argument
    array as launched. -/
theorem run : θ_run defs (onTc (τ := τ) (main (F := Ideal))) ⟨m, fun _ => 0, ρ⟩ fun r => ∀ c : Dev nD,
      r.2.mem ((c.tc : Thread nD τ).loc main_v7_0) = gh m c
      ∧ r.2.mem ((c.tc : Thread nD τ).loc main_v7_1) = gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.ValueH

end
-- ==== Proof.lean ====
/-
  A fused LSTM cell against its plain reference, over the extended reals.

  The reference joins the input with the hidden state, multiplies the joined row by the four gates' weight matrices
  stacked (input, forget, output, candidate) and transposed, adds the stacked bias, and applies the gates:
    c' = σ(f) · c + σ(i) · tanh(g),   h' = σ(o) · tanh(c').
  The kernel never joins anything: it cuts the transposed stack into its input half and its hidden-state half, walks
  the contracted axis in 16 steps of 128 columns, and at each step adds the two half-products to an accumulator that
  started at the bias row; at a batch tile's last step it applies the same gates to the accumulator. The two agree
  because a finite sum on the extended reals may be regrouped freely — addition there is commutative and associative,
  which is all the regrouping uses; no product is distributed over a sum, so no finiteness of the inputs is used — and
  because the rounding of the operands to a shorter format is the identity on the extended reals.

  The modules: `Spec` states the cell as one function of the argument arrays; `RefSpec` reads the reference's run as
  that function; `K/…` and `KI/…` run the word-level and the idealized kernel program (the body once per case, the
  accumulation over the grid, the launch), which gives both frames; `Pieces`, `Payloads`, `BlockReads`,
  `EntryValues`, `AccSpec`, `AccAlgebra`, `Accumulate` and `KernelRun` read the idealized kernel's two result arrays
  as the same function.
-/
import proofs.«101779_j19009525252387_2_alg».proof.Defs
import proofs.«101779_j19009525252387_2_alg».proof.Proof.Gen.Kernel
import proofs.«101779_j19009525252387_2_alg».proof.Proof.Gen.KernelIdeal
import proofs.«101779_j19009525252387_2_alg».proof.Proof.Gen.ReferenceIdeal
import proofs.«101779_j19009525252387_2_alg».proof.Proof.Gen.Pre_finite_inputs
import proofs.«101779_j19009525252387_2_alg».proof.Proof.K.Frame
import proofs.«101779_j19009525252387_2_alg».proof.Proof.KI.Frame
import proofs.«101779_j19009525252387_2_alg».proof.Proof.RefSpec
import proofs.«101779_j19009525252387_2_alg».proof.Proof.KernelRun

noncomputable section

namespace Cert.Proof

open Idealize.ShloMosaic Idealize.ShloMosaic.TcCoe Idealize.SL.Sem

/-- The word-level kernel program runs to the end, faults nowhere, and leaves its arguments unchanged. -/
theorem frame_k : Cert.frame_Kernel := fun m ρ _ => Cert.Kernel.GenH.frame m ρ

/-- So does the idealized kernel program, -/
theorem frame_ki : Cert.frame_KernelIdeal := fun m ρ _ => Cert.KernelIdeal.GenH.frame m ρ

/-- and the reference: its run with the results dropped. -/
theorem frame_ri : Cert.frame_ReferenceIdeal := fun m ρ _ =>
  (θ_run Cert.ReferenceIdeal.defs _ _).mono (fun _ h c => (h c).2.2) (Cert.ReferenceIdeal.RefValue.run_spec m ρ)

/-- The idealization rewrote no operation of the kernel program. -/
theorem preserves : Cert.preserves_Kernel_KernelIdeal := trivial

/-- From memories that agree on the arguments, the idealized kernel ends with its two result arrays at the new hidden
    state and the new cell state of the specification, and so does the reference. -/
theorem algebraic : Cert.algebraic_KernelIdeal_ReferenceIdeal := by
  intro m ρ m' ρ' _ hagree
  refine ⟨fun c => Cert.KernelIdeal.ValueH.gh m c, fun c => Cert.KernelIdeal.ValueH.gc m c, Cert.KernelIdeal.ValueH.run m ρ, ?_⟩
  refine (θ_run Cert.ReferenceIdeal.defs _ _).mono (fun _ h c => ⟨(h c).1.trans ?_, (h c).2.1.trans ?_, (h c).2.2⟩)
    (Cert.ReferenceIdeal.RefValue.run_spec m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
